-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S8192x4096 .f32) (main_arg1 : IVec S4096x4096 32) (main_arg2 : FVec F S4096x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S4096x32 : Shape := ⟨2, ![4096, 32]⟩
abbrev S512x4096 : Shape := ⟨2, ![512, 4096]⟩
abbrev S512x32 : Shape := ⟨2, ![512, 32]⟩
abbrev S512x512 : Shape := ⟨2, ![512, 512]⟩
abbrev S512x128 : Shape := ⟨2, ![512, 128]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S8192x4096, .bf16⟩
  | .hbm, ⟨4, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .i32⟩
  | .local _ .vmem, ⟨3, _⟩ => ⟨S512x4096, .i32⟩
  | .local _ .vmem, ⟨4, _⟩ => ⟨S512x32, .f32⟩
  | .local _ .vmem, ⟨5, _⟩ => ⟨S512x32, .f32⟩
  | .local _ .vmem, ⟨6, _⟩ => ⟨S512x512, .f32⟩
  | .local _ .vmem, ⟨7, _⟩ => ⟨S512x512, .f32⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x4096_S512x128_0_0 : ∀ a, (![0, 0] : Fin 2 → Nat) a + S512x128.size a ≤ S512x4096.size a
  h_S512x128 : 0 < S512x128.numel
  slices_S512x32_o0_0_S512x1 : S512x32.Slices ![0, 0] S512x1
  broadcasts_S512x1_S512x128 : S512x1.Broadcasts S512x128
  shapeCasts_S512x128_S512x128 : S512x128.ShapeCasts S512x128
  packedbf16_S512x4096_S512x128_0_0 : (Rect.unit (s := S512x4096) ![0, 0] S512x128.size inb_S512x4096_S512x128_0_0).PackedRows (EltTy.packing .bf16)
  slices_S512x4096_o0_0_S512x128 : S512x4096.Slices ![0, 0] S512x128
  inb_S512x4096_S512x128_0_128 : ∀ a, (![0, 128] : Fin 2 → Nat) a + S512x128.size a ≤ S512x4096.size a
  slices_S512x32_o0_1_S512x1 : S512x32.Slices ![0, 1] S512x1
  packedbf16_S512x4096_S512x128_0_128 : (Rect.unit (s := S512x4096) ![0, 128] S512x128.size inb_S512x4096_S512x128_0_128).PackedRows (EltTy.packing .bf16)
  slices_S512x4096_o0_128_S512x128 : S512x4096.Slices ![0, 128] S512x128
  inb_S512x4096_S512x128_0_256 : ∀ a, (![0, 256] : Fin 2 → Nat) a + S512x128.size a ≤ S512x4096.size a
  slices_S512x32_o0_2_S512x1 : S512x32.Slices ![0, 2] S512x1
  packedbf16_S512x4096_S512x128_0_256 : (Rect.unit (s := S512x4096) ![0, 256] S512x128.size inb_S512x4096_S512x128_0_256).PackedRows (EltTy.packing .bf16)
  slices_S512x4096_o0_256_S512x128 : S512x4096.Slices ![0, 256] S512x128
  inb_S512x4096_S512x128_0_384 : ∀ a, (![0, 384] : Fin 2 → Nat) a + S512x128.size a ≤ S512x4096.size a
  slices_S512x32_o0_3_S512x1 : S512x32.Slices ![0, 3] S512x1
  packedbf16_S512x4096_S512x128_0_384 : (Rect.unit (s := S512x4096) ![0, 384] S512x128.size inb_S512x4096_S512x128_0_384).PackedRows (EltTy.packing .bf16)
  slices_S512x4096_o0_384_S512x128 : S512x4096.Slices ![0, 384] S512x128
  inb_S512x4096_S512x128_0_512 : ∀ a, (![0, 512] : Fin 2 → Nat) a + S512x128.size a ≤ S512x4096.size a
  slices_S512x32_o0_4_S512x1 : S512x32.Slices ![0, 4] S512x1
  packedbf16_S512x4096_S512x128_0_512 : (Rect.unit (s := S512x4096) ![0, 512] S512x128.size inb_S512x4096_S512x128_0_512).PackedRows (EltTy.packing .bf16)
  slices_S512x4096_o0_512_S512x128 : S512x4096.Slices ![0, 512] S512x128
  inb_S512x4096_S512x128_0_640 : ∀ a, (![0, 640] : Fin 2 → Nat) a + S512x128.size a ≤ S512x4096.size a
  slices_S512x32_o0_5_S512x1 : S512x32.Slices ![0, 5] S512x1
  packedbf16_S512x4096_S512x128_0_640 : (Rect.unit (s := S512x4096) ![0, 640] S512x128.size inb_S512x4096_S512x128_0_640).PackedRows (EltTy.packing .bf16)
  slices_S512x4096_o0_640_S512x128 : S512x4096.Slices ![0, 640] S512x128
  inb_S512x4096_S512x128_0_768 : ∀ a, (![0, 768] : Fin 2 → Nat) a + S512x128.size a ≤ S512x4096.size a
  slices_S512x32_o0_6_S512x1 : S512x32.Slices ![0, 6] S512x1
  packedbf16_S512x4096_S512x128_0_768 : (Rect.unit (s := S512x4096) ![0, 768] S512x128.size inb_S512x4096_S512x128_0_768).PackedRows (EltTy.packing .bf16)
  slices_S512x4096_o0_768_S512x128 : S512x4096.Slices ![0, 768] S512x128
  inb_S512x4096_S512x128_0_896 : ∀ a, (![0, 896] : Fin 2 → Nat) a + S512x128.size a ≤ S512x4096.size a
  slices_S512x32_o0_7_S512x1 : S512x32.Slices ![0, 7] S512x1
  packedbf16_S512x4096_S512x128_0_896 : (Rect.unit (s := S512x4096) ![0, 896] S512x128.size inb_S512x4096_S512x128_0_896).PackedRows (EltTy.packing .bf16)
  slices_S512x4096_o0_896_S512x128 : S512x4096.Slices ![0, 896] S512x128
  inb_S512x4096_S512x128_0_1024 : ∀ a, (![0, 1024] : Fin 2 → Nat) a + S512x128.size a ≤ S512x4096.size a
  slices_S512x32_o0_8_S512x1 : S512x32.Slices ![0, 8] S512x1
  packedbf16_S512x4096_S512x128_0_1024 : (Rect.unit (s := S512x4096) ![0, 1024] S512x128.size inb_S512x4096_S512x128_0_1024).PackedRows (EltTy.packing .bf16)
  slices_S512x4096_o0_1024_S512x128 : S512x4096.Slices ![0, 1024] S512x128
  inb_S512x4096_S512x128_0_1152 : ∀ a, (![0, 1152] : Fin 2 → Nat) a + S512x128.size a ≤ S512x4096.size a
  slices_S512x32_o0_9_S512x1 : S512x32.Slices ![0, 9] S512x1
  packedbf16_S512x4096_S512x128_0_1152 : (Rect.unit (s := S512x4096) ![0, 1152] S512x128.size inb_S512x4096_S512x128_0_1152).PackedRows (EltTy.packing .bf16)
  slices_S512x4096_o0_1152_S512x128 : S512x4096.Slices ![0, 1152] S512x128
  inb_S512x4096_S512x128_0_1280 : ∀ a, (![0, 1280] : Fin 2 → Nat) a + S512x128.size a ≤ S512x4096.size a
  slices_S512x32_o0_10_S512x1 : S512x32.Slices ![0, 10] S512x1
  packedbf16_S512x4096_S512x128_0_1280 : (Rect.unit (s := S512x4096) ![0, 1280] S512x128.size inb_S512x4096_S512x128_0_1280).PackedRows (EltTy.packing .bf16)
  slices_S512x4096_o0_1280_S512x128 : S512x4096.Slices ![0, 1280] S512x128
  inb_S512x4096_S512x128_0_1408 : ∀ a, (![0, 1408] : Fin 2 → Nat) a + S512x128.size a ≤ S512x4096.size a
  slices_S512x32_o0_11_S512x1 : S512x32.Slices ![0, 11] S512x1
  packedbf16_S512x4096_S512x128_0_1408 : (Rect.unit (s := S512x4096) ![0, 1408] S512x128.size inb_S512x4096_S512x128_0_1408).PackedRows (EltTy.packing .bf16)
  slices_S512x4096_o0_1408_S512x128 : S512x4096.Slices ![0, 1408] S512x128
  inb_S512x4096_S512x128_0_1536 : ∀ a, (![0, 1536] : Fin 2 → Nat) a + S512x128.size a ≤ S512x4096.size a
  slices_S512x32_o0_12_S512x1 : S512x32.Slices ![0, 12] S512x1
  packedbf16_S512x4096_S512x128_0_1536 : (Rect.unit (s := S512x4096) ![0, 1536] S512x128.size inb_S512x4096_S512x128_0_1536).PackedRows (EltTy.packing .bf16)
  slices_S512x4096_o0_1536_S512x128 : S512x4096.Slices ![0, 1536] S512x128
  inb_S512x4096_S512x128_0_1664 : ∀ a, (![0, 1664] : Fin 2 → Nat) a + S512x128.size a ≤ S512x4096.size a
  slices_S512x32_o0_13_S512x1 : S512x32.Slices ![0, 13] S512x1
  packedbf16_S512x4096_S512x128_0_1664 : (Rect.unit (s := S512x4096) ![0, 1664] S512x128.size inb_S512x4096_S512x128_0_1664).PackedRows (EltTy.packing .bf16)
  slices_S512x4096_o0_1664_S512x128 : S512x4096.Slices ![0, 1664] S512x128
  inb_S512x4096_S512x128_0_1792 : ∀ a, (![0, 1792] : Fin 2 → Nat) a + S512x128.size a ≤ S512x4096.size a
  slices_S512x32_o0_14_S512x1 : S512x32.Slices ![0, 14] S512x1
  packedbf16_S512x4096_S512x128_0_1792 : (Rect.unit (s := S512x4096) ![0, 1792] S512x128.size inb_S512x4096_S512x128_0_1792).PackedRows (EltTy.packing .bf16)
  slices_S512x4096_o0_1792_S512x128 : S512x4096.Slices ![0, 1792] S512x128
  inb_S512x4096_S512x128_0_1920 : ∀ a, (![0, 1920] : Fin 2 → Nat) a + S512x128.size a ≤ S512x4096.size a
  slices_S512x32_o0_15_S512x1 : S512x32.Slices ![0, 15] S512x1
  packedbf16_S512x4096_S512x128_0_1920 : (Rect.unit (s := S512x4096) ![0, 1920] S512x128.size inb_S512x4096_S512x128_0_1920).PackedRows (EltTy.packing .bf16)
  slices_S512x4096_o0_1920_S512x128 : S512x4096.Slices ![0, 1920] S512x128
  inb_S512x4096_S512x128_0_2048 : ∀ a, (![0, 2048] : Fin 2 → Nat) a + S512x128.size a ≤ S512x4096.size a
  slices_S512x32_o0_16_S512x1 : S512x32.Slices ![0, 16] S512x1
  packedbf16_S512x4096_S512x128_0_2048 : (Rect.unit (s := S512x4096) ![0, 2048] S512x128.size inb_S512x4096_S512x128_0_2048).PackedRows (EltTy.packing .bf16)
  slices_S512x4096_o0_2048_S512x128 : S512x4096.Slices ![0, 2048] S512x128
  inb_S512x4096_S512x128_0_2176 : ∀ a, (![0, 2176] : Fin 2 → Nat) a + S512x128.size a ≤ S512x4096.size a
  slices_S512x32_o0_17_S512x1 : S512x32.Slices ![0, 17] S512x1
  packedbf16_S512x4096_S512x128_0_2176 : (Rect.unit (s := S512x4096) ![0, 2176] S512x128.size inb_S512x4096_S512x128_0_2176).PackedRows (EltTy.packing .bf16)
  slices_S512x4096_o0_2176_S512x128 : S512x4096.Slices ![0, 2176] S512x128
  inb_S512x4096_S512x128_0_2304 : ∀ a, (![0, 2304] : Fin 2 → Nat) a + S512x128.size a ≤ S512x4096.size a
  slices_S512x32_o0_18_S512x1 : S512x32.Slices ![0, 18] S512x1
  packedbf16_S512x4096_S512x128_0_2304 : (Rect.unit (s := S512x4096) ![0, 2304] S512x128.size inb_S512x4096_S512x128_0_2304).PackedRows (EltTy.packing .bf16)
  slices_S512x4096_o0_2304_S512x128 : S512x4096.Slices ![0, 2304] S512x128
  inb_S512x4096_S512x128_0_2432 : ∀ a, (![0, 2432] : Fin 2 → Nat) a + S512x128.size a ≤ S512x4096.size a
  slices_S512x32_o0_19_S512x1 : S512x32.Slices ![0, 19] S512x1
  packedbf16_S512x4096_S512x128_0_2432 : (Rect.unit (s := S512x4096) ![0, 2432] S512x128.size inb_S512x4096_S512x128_0_2432).PackedRows (EltTy.packing .bf16)
  slices_S512x4096_o0_2432_S512x128 : S512x4096.Slices ![0, 2432] S512x128
  inb_S512x4096_S512x128_0_2560 : ∀ a, (![0, 2560] : Fin 2 → Nat) a + S512x128.size a ≤ S512x4096.size a
  slices_S512x32_o0_20_S512x1 : S512x32.Slices ![0, 20] S512x1
  packedbf16_S512x4096_S512x128_0_2560 : (Rect.unit (s := S512x4096) ![0, 2560] S512x128.size inb_S512x4096_S512x128_0_2560).PackedRows (EltTy.packing .bf16)
  slices_S512x4096_o0_2560_S512x128 : S512x4096.Slices ![0, 2560] S512x128
  inb_S512x4096_S512x128_0_2688 : ∀ a, (![0, 2688] : Fin 2 → Nat) a + S512x128.size a ≤ S512x4096.size a
  slices_S512x32_o0_21_S512x1 : S512x32.Slices ![0, 21] S512x1
  packedbf16_S512x4096_S512x128_0_2688 : (Rect.unit (s := S512x4096) ![0, 2688] S512x128.size inb_S512x4096_S512x128_0_2688).PackedRows (EltTy.packing .bf16)
  slices_S512x4096_o0_2688_S512x128 : S512x4096.Slices ![0, 2688] S512x128
  inb_S512x4096_S512x128_0_2816 : ∀ a, (![0, 2816] : Fin 2 → Nat) a + S512x128.size a ≤ S512x4096.size a
  slices_S512x32_o0_22_S512x1 : S512x32.Slices ![0, 22] S512x1
  packedbf16_S512x4096_S512x128_0_2816 : (Rect.unit (s := S512x4096) ![0, 2816] S512x128.size inb_S512x4096_S512x128_0_2816).PackedRows (EltTy.packing .bf16)
  slices_S512x4096_o0_2816_S512x128 : S512x4096.Slices ![0, 2816] S512x128
  inb_S512x4096_S512x128_0_2944 : ∀ a, (![0, 2944] : Fin 2 → Nat) a + S512x128.size a ≤ S512x4096.size a
  slices_S512x32_o0_23_S512x1 : S512x32.Slices ![0, 23] S512x1
  packedbf16_S512x4096_S512x128_0_2944 : (Rect.unit (s := S512x4096) ![0, 2944] S512x128.size inb_S512x4096_S512x128_0_2944).PackedRows (EltTy.packing .bf16)
  slices_S512x4096_o0_2944_S512x128 : S512x4096.Slices ![0, 2944] S512x128
  inb_S512x4096_S512x128_0_3072 : ∀ a, (![0, 3072] : Fin 2 → Nat) a + S512x128.size a ≤ S512x4096.size a
  slices_S512x32_o0_24_S512x1 : S512x32.Slices ![0, 24] S512x1
  packedbf16_S512x4096_S512x128_0_3072 : (Rect.unit (s := S512x4096) ![0, 3072] S512x128.size inb_S512x4096_S512x128_0_3072).PackedRows (EltTy.packing .bf16)
  slices_S512x4096_o0_3072_S512x128 : S512x4096.Slices ![0, 3072] S512x128
  inb_S512x4096_S512x128_0_3200 : ∀ a, (![0, 3200] : Fin 2 → Nat) a + S512x128.size a ≤ S512x4096.size a
  slices_S512x32_o0_25_S512x1 : S512x32.Slices ![0, 25] S512x1
  packedbf16_S512x4096_S512x128_0_3200 : (Rect.unit (s := S512x4096) ![0, 3200] S512x128.size inb_S512x4096_S512x128_0_3200).PackedRows (EltTy.packing .bf16)
  slices_S512x4096_o0_3200_S512x128 : S512x4096.Slices ![0, 3200] S512x128
  inb_S512x4096_S512x128_0_3328 : ∀ a, (![0, 3328] : Fin 2 → Nat) a + S512x128.size a ≤ S512x4096.size a
  slices_S512x32_o0_26_S512x1 : S512x32.Slices ![0, 26] S512x1
  packedbf16_S512x4096_S512x128_0_3328 : (Rect.unit (s := S512x4096) ![0, 3328] S512x128.size inb_S512x4096_S512x128_0_3328).PackedRows (EltTy.packing .bf16)
  slices_S512x4096_o0_3328_S512x128 : S512x4096.Slices ![0, 3328] S512x128
  inb_S512x4096_S512x128_0_3456 : ∀ a, (![0, 3456] : Fin 2 → Nat) a + S512x128.size a ≤ S512x4096.size a
  slices_S512x32_o0_27_S512x1 : S512x32.Slices ![0, 27] S512x1
  packedbf16_S512x4096_S512x128_0_3456 : (Rect.unit (s := S512x4096) ![0, 3456] S512x128.size inb_S512x4096_S512x128_0_3456).PackedRows (EltTy.packing .bf16)
  slices_S512x4096_o0_3456_S512x128 : S512x4096.Slices ![0, 3456] S512x128
  inb_S512x4096_S512x128_0_3584 : ∀ a, (![0, 3584] : Fin 2 → Nat) a + S512x128.size a ≤ S512x4096.size a
  slices_S512x32_o0_28_S512x1 : S512x32.Slices ![0, 28] S512x1
  packedbf16_S512x4096_S512x128_0_3584 : (Rect.unit (s := S512x4096) ![0, 3584] S512x128.size inb_S512x4096_S512x128_0_3584).PackedRows (EltTy.packing .bf16)
  slices_S512x4096_o0_3584_S512x128 : S512x4096.Slices ![0, 3584] S512x128
  inb_S512x4096_S512x128_0_3712 : ∀ a, (![0, 3712] : Fin 2 → Nat) a + S512x128.size a ≤ S512x4096.size a
  slices_S512x32_o0_29_S512x1 : S512x32.Slices ![0, 29] S512x1
  packedbf16_S512x4096_S512x128_0_3712 : (Rect.unit (s := S512x4096) ![0, 3712] S512x128.size inb_S512x4096_S512x128_0_3712).PackedRows (EltTy.packing .bf16)
  slices_S512x4096_o0_3712_S512x128 : S512x4096.Slices ![0, 3712] S512x128
  inb_S512x4096_S512x128_0_3840 : ∀ a, (![0, 3840] : Fin 2 → Nat) a + S512x128.size a ≤ S512x4096.size a
  slices_S512x32_o0_30_S512x1 : S512x32.Slices ![0, 30] S512x1
  packedbf16_S512x4096_S512x128_0_3840 : (Rect.unit (s := S512x4096) ![0, 3840] S512x128.size inb_S512x4096_S512x128_0_3840).PackedRows (EltTy.packing .bf16)
  slices_S512x4096_o0_3840_S512x128 : S512x4096.Slices ![0, 3840] S512x128
  inb_S512x4096_S512x128_0_3968 : ∀ a, (![0, 3968] : Fin 2 → Nat) a + S512x128.size a ≤ S512x4096.size a
  slices_S512x32_o0_31_S512x1 : S512x32.Slices ![0, 31] S512x1
  packedbf16_S512x4096_S512x128_0_3968 : (Rect.unit (s := S512x4096) ![0, 3968] S512x128.size inb_S512x4096_S512x128_0_3968).PackedRows (EltTy.packing .bf16)
  slices_S512x4096_o0_3968_S512x128 : S512x4096.Slices ![0, 3968] S512x128
  inb_S512x512_S512x512_0_0 : ∀ a, (![0, 0] : Fin 2 → Nat) a + S512x512.size a ≤ S512x512.size a
  h_S512x512 : 0 < S512x512.numel
  dot_S512x128_S512x128_S512x512_1_1_0_0_n_n_wf : DotDims.WF S512x128 S512x128 S512x512 [1] [1] [0] [0] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S_ : Shape := ⟨0, ![]⟩
abbrev S4096x32x128 : Shape := ⟨3, ![4096, 32, 128]⟩
abbrev S4096x32x1 : Shape := ⟨3, ![4096, 32, 1]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x32x128, .f32⟩
  | .hbm, ⟨8, _⟩ => ⟨S4096x32x1, .f32⟩
  | .hbm, ⟨9, _⟩ => ⟨S4096x32x128, .f32⟩
  | .hbm, ⟨10, _⟩ => ⟨S4096x32x128, .f32⟩
  | .hbm, ⟨11, _⟩ => ⟨S4096x4096, .f32⟩
  | .hbm, ⟨12, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KB.Shared.lean ====
/-
  The grouped-quantization matmul kernel on its 8 x 16 grid (out-tile j outer, token-tile i inner), read at
  ANY float instance: what the two runs of its body share.

  The body branches on the token-tile coordinate alone. At i = 0 (the grid points t with t % 16 = 0) it dequantizes the
  out-tile's 512 x 4096 weight block group by group into the scratch buffer and accumulates the 32 partial products;
  at i ≠ 0 (every other point) it multiplies the token block by the weight block the scratch still holds. Exactly one
  of the two branches is taken at every point, so the output window is stored at every point and never idle.
-/
import proofs.«151252_j90718299226265_2_alg».proof.Proof.Gen.Kernel.Launch
import proofs.«151252_j90718299226265_2_alg».proof.Proof.Gen.Kernel.Skeleton
import proofs.«151252_j90718299226265_2_alg».proof.Proof.Gen.Kernel.Points
import proofs.«151252_j90718299226265_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

/-- The body's first branch is taken: the token-tile coordinate is 0. -/
abbrev isFirst (i : grid0.Coords) : Prop := k0_cond1 i = 1#1
/-- The body's second branch is taken: the token-tile coordinate is not 0. -/
abbrev isLater (i : grid0.Coords) : Prop := k0_cond2 i = 1#1

/-- The token-tile coordinate of point t is t % 16: it is 0 exactly at the multiples of 16. -/
theorem isFirst_iff : ∀ t : Fin cfg0.N, isFirst (grid0.coords t) ↔ t.val % 16 = 0 :=
  (by decide +kernel : ∀ t : Fin grid0.N, isFirst (grid0.coords t) ↔ t.val % 16 = 0)
/-- And the second branch is taken at every other point. -/
theorem isLater_iff : ∀ t : Fin cfg0.N, isLater (grid0.coords t) ↔ ¬ t.val % 16 = 0 :=
  (by decide +kernel : ∀ t : Fin grid0.N, isLater (grid0.coords t) ↔ ¬ t.val % 16 = 0)

/-! ## No window is idle at any point -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- One of the two branches stores the output block at every point. -/
theorem live3 : ∀ t : Fin cfg0.N, cfg0.idle 3 (grid0.coords t) = false := by decide +kernel

/-! ## The memrefs the body is called with -/

abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
/-- The weight scratch: a whole buffer of the kernel's own, carried from point to point. -/
abbrev wM : Memref sig .tc .vmem S512x4096 .bf16 := Memref.whole cc0_scratch0
/-- The same as a view: what the scratch holds is stated through it. -/
abbrev wV : View sig .tc .vmem S512x4096 .bf16 := wM.view
/-- One staging buffer of the output window, through which its contents are stated (the choice does not matter). -/
abbrev oV : View sig .tc .vmem S512x512 .f32 := (Memref.whole cc0_stg3_0 : Memref sig .tc .vmem S512x512 .f32).view

/-- What the launch hands the region beside the windows: the weight scratch at some contents and the generator
    register at some state. -/
theorem PhiA_eq (c : Dev nD) :
    (Pipeline.ΦA spec0 c : sProp 𝕄)
      = iprop(iprop((∃ d, owns (c : Thread nD τ) wM fullShare d)) ∗ (∃ r, prngReg c r)) := by
  unfold Pipeline.ΦA; rw [scopedRest0_eq]; simp only [wM, owns_whole]; try rfl

end Cert.Kernel.Body

end
-- ==== Proof.KB.RunFresh.lean ====
/-
  The body at a grid point whose token-tile coordinate is 0, the first point of an out-tile: group by group (32 groups
  of 128 input features) it converts the quantized weights to floats, subtracts the zero point 8, scales each row by
  that row's scale for the group, stores the 512 x 128 result into the group's columns of the scratch buffer, and adds
  the product of the token block's matching 128 columns with it to an accumulator that starts at zero; the accumulator
  is stored as the output block. The 32 stores tile the scratch, so it ends holding the whole dequantized weight block
  whatever it held before.
-/
import proofs.«151252_j90718299226265_2_alg».proof.Proof.KB.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- On whole memrefs — the token block at x0, the quantized-weight block at x1, the scale block at x2, the output
    buffer and the weight scratch at anything — the body runs to a continuation that gets the three inputs back
    unchanged, the output buffer with the pieces L3 written (the branch's one store of the accumulator) and the scratch
    with the pieces LS written (its 32 stores, one per group): both lists are found by running the body. -/
noncomputable def runFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) :
    Σ' (L3 : List (View.Piece (Elt F) S512x512 .f32)), { LS : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0_gptq_matmul_kernel i arg2 harg2 arg3 harg3 arg4 harg4 arg5 harg5 arg6 harg6) K } := by
  refine ⟨?_, ?_, fun E K => ?run⟩
  case run =>
    simp only [cc0_gptq_matmul_kernel_eq_skeleton]; unfold cc0_gptq_matmul_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Body

end
-- ==== Proof.KB.RunCached.lean ====
/-
  The body at a grid point whose token-tile coordinate is not 0: the weight block of this out-tile is already in the
  scratch buffer (the point with coordinate 0 of the same out-tile put it there), so the body loads the token block and
  the whole scratch, multiplies them contracting the 4096 input features, and stores the 512 x 512 product as the
  output block. The scratch is read and left as it was found.
-/
import proofs.«151252_j90718299226265_2_alg».proof.Proof.KB.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the token block at x0, the weight scratch at xs (what the point before left), the
    quantized-weight and scale blocks at anything they hold (the branch does not read them), the output buffer at
    anything — the body runs to a continuation that gets every input and the scratch back unchanged and the output
    buffer with the pieces L3 written: the one store of the branch, found by running the body. -/
noncomputable def runCached (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec F S512x4096 .bf16) (xs : Vec F S512x4096 .bf16) :
    { L3 : List (View.Piece (Elt F) S512x512 .f32) //
      ∀ (x1 : Vec F S512x4096 .i32) (x2 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0_gptq_matmul_kernel i arg2 harg2 arg3 harg3 arg4 harg4 arg5 harg5 arg6 harg6) K } := by
  refine ⟨?_, fun x1 x2 E K => ?run⟩
  case run =>
    simp only [cc0_gptq_matmul_kernel_eq_skeleton]; unfold cc0_gptq_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.Kernel.Body

end
-- ==== Proof.KB.Frame.lean ====
/-
  The frame of the grouped-quantization matmul kernel, at ANY float instance: every weakly fair execution of @main
  terminates without a fault and leaves the three argument arrays as it found them.

  The body keeps the dequantized weight block of the current out-tile in a scratch buffer from the out-tile's first
  point (token-tile 0, where it is written whole) to its last, so the invariant carried from point to point names what
  the scratch holds: after a first point, the 32 group pieces that point stored; after any other point, what the point
  before left. The output block is stored whole at every point, and written back at every point.
-/
import proofs.«151252_j90718299226265_2_alg».proof.Proof.KB.RunFresh
import proofs.«151252_j90718299226265_2_alg».proof.Proof.KB.RunCached

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves behind -/

/-- The one store of a first point covers the output block. -/
theorem coverOutFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) (y : S512x512.Idx) :
    ∃ pc ∈ (runFresh c i arg2 harg2 arg3 harg3 arg4 harg4 arg5 harg5 arg6 harg6 hc0 hc1 x0 x1 x2).1, y ∈ pc.1.set :=
  View.cover_of_tiledL (runFresh c i arg2 harg2 arg3 harg3 arg4 harg4 arg5 harg5 arg6 harg6 hc0 hc1 x0 x1 x2).1 S512x512.size (by sl_kernel_rfl) y

/-- What a first point leaves in the output buffer: its piece read back. -/
def outFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) : Vec F S512x512 .f32 :=
  oV.read (Elt F) (oV.writes (Elt F) oV.junk (runFresh c i arg2 harg2 arg3 harg3 arg4 harg4 arg5 harg5 arg6 harg6 hc0 hc1 x0 x1 x2).1)

/-- The 32 group stores of a first point (512 x 128 each, at columns 128·g) tile the scratch. -/
theorem coverWFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) (y : S512x4096.Idx) :
    ∃ pc ∈ (runFresh c i arg2 harg2 arg3 harg3 arg4 harg4 arg5 harg5 arg6 harg6 hc0 hc1 x0 x1 x2).2.1, y ∈ pc.1.set :=
  View.cover_of_tiledL (runFresh c i arg2 harg2 arg3 harg3 arg4 harg4 arg5 harg5 arg6 harg6 hc0 hc1 x0 x1 x2).2.1 S512x128.size (by sl_kernel_rfl) y

/-- What a first point leaves in the weight scratch: its 32 pieces read back. -/
def wFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) : Vec F S512x4096 .bf16 :=
  wV.read (Elt F) (wV.writes (Elt F) wV.junk (runFresh c i arg2 harg2 arg3 harg3 arg4 harg4 arg5 harg5 arg6 harg6 hc0 hc1 x0 x1 x2).2.1)

/-- The one store of a later point covers the output block. -/
theorem coverOutCached (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec F S512x4096 .bf16) (xs : Vec F S512x4096 .bf16) (y : S512x512.Idx) :
    ∃ pc ∈ (runCached c i arg2 harg2 arg3 harg3 arg4 harg4 arg5 harg5 arg6 harg6 hc0 hc1 x0 xs).1, y ∈ pc.1.set :=
  View.cover_of_tiledL (runCached c i arg2 harg2 arg3 harg3 arg4 harg4 arg5 harg5 arg6 harg6 hc0 hc1 x0 xs).1 S512x512.size (by sl_kernel_rfl) y

/-- What a later point leaves in the output buffer, given the scratch contents xs it found: its piece read back. -/
def outCached (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec F S512x4096 .bf16) (xs : Vec F S512x4096 .bf16) : Vec F S512x512 .f32 :=
  oV.read (Elt F) (oV.writes (Elt F) oV.junk (runCached c i arg2 harg2 arg3 harg3 arg4 harg4 arg5 harg5 arg6 harg6 hc0 hc1 x0 xs).1)

/-! ## Point by point -/

/-- What the output buffer and the weight scratch hold after the body at position n: at a multiple of 16 what a first
    point leaves of the point's three input blocks; elsewhere the product of the point's token block with the scratch the
    point before left, and that scratch again. -/
def outsAt (c : Dev nD) : (n : ℕ) → n < cfg0.N → Vec F S512x512 .f32 × Vec F S512x4096 .bf16
  | 0, hn => (outFresh c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) wM (Memref.isWhole_whole _) ((isFirst_iff ⟨0, hn⟩).mpr (Nat.zero_mod _)) (fun h => (isLater_iff ⟨0, hn⟩).mp h (Nat.zero_mod _)) (iblk m c 0 ⟨0, hn⟩) (iblk m c 1 ⟨0, hn⟩) (iblk m c 2 ⟨0, hn⟩), wFresh c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) wM (Memref.isWhole_whole _) ((isFirst_iff ⟨0, hn⟩).mpr (Nat.zero_mod _)) (fun h => (isLater_iff ⟨0, hn⟩).mp h (Nat.zero_mod _)) (iblk m c 0 ⟨0, hn⟩) (iblk m c 1 ⟨0, hn⟩) (iblk m c 2 ⟨0, hn⟩))
  | n + 1, hn =>
    if h0 : (n + 1) % 16 = 0 then
      (outFresh c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) wM (Memref.isWhole_whole _) ((isFirst_iff ⟨n + 1, hn⟩).mpr h0) (fun h => (isLater_iff ⟨n + 1, hn⟩).mp h h0) (iblk m c 0 ⟨n + 1, hn⟩) (iblk m c 1 ⟨n + 1, hn⟩) (iblk m c 2 ⟨n + 1, hn⟩), wFresh c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) wM (Memref.isWhole_whole _) ((isFirst_iff ⟨n + 1, hn⟩).mpr h0) (fun h => (isLater_iff ⟨n + 1, hn⟩).mp h h0) (iblk m c 0 ⟨n + 1, hn⟩) (iblk m c 1 ⟨n + 1, hn⟩) (iblk m c 2 ⟨n + 1, hn⟩))
    else
      (outCached c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) wM (Memref.isWhole_whole _) (fun h => h0 ((isFirst_iff ⟨n + 1, hn⟩).mp h)) ((isLater_iff ⟨n + 1, hn⟩).mpr h0) (iblk m c 0 ⟨n + 1, hn⟩) (outsAt c n (Nat.lt_of_succ_lt hn)).2, (outsAt c n (Nat.lt_of_succ_lt hn)).2)

theorem outsAt_fresh (c : Dev nD) (t : Fin cfg0.N) (h0 : t.val % 16 = 0) :
    outsAt m c t.val t.isLt = (outFresh c (grid0.coords t) (ms0 t) (hs0 t) (ms1 t) (hs1 t) (ms2 t) (hs2 t) (ms3 t) (hs3 t) wM (Memref.isWhole_whole _) ((isFirst_iff t).mpr h0) (fun h => (isLater_iff t).mp h h0) (iblk m c 0 t) (iblk m c 1 t) (iblk m c 2 t), wFresh c (grid0.coords t) (ms0 t) (hs0 t) (ms1 t) (hs1 t) (ms2 t) (hs2 t) (ms3 t) (hs3 t) wM (Memref.isWhole_whole _) ((isFirst_iff t).mpr h0) (fun h => (isLater_iff t).mp h h0) (iblk m c 0 t) (iblk m c 1 t) (iblk m c 2 t)) := by
  obtain ⟨n, hn⟩ := t
  cases n with
  | zero => exact rfl
  | succ n => exact (dif_pos h0).trans rfl

theorem outsAt_cached (c : Dev nD) (t : Fin cfg0.N) (h0 : ¬t.val % 16 = 0) :
    outsAt m c t.val t.isLt = (outCached c (grid0.coords t) (ms0 t) (hs0 t) (ms1 t) (hs1 t) (ms2 t) (hs2 t) (ms3 t) (hs3 t) wM (Memref.isWhole_whole _) (fun h => h0 ((isFirst_iff t).mp h)) ((isLater_iff t).mpr h0) (iblk m c 0 t) (outsAt m c (t.val - 1) (Nat.lt_of_le_of_lt (Nat.sub_le _ _) t.isLt)).2, (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- The invariant before position n: before the first point what the launch hands over (the scratch at anything);
    afterwards the scratch at what the point before left, and the generator register at some state. -/
def PhiS (c : Dev nD) : (n : ℕ) → n ≤ cfg0.N → sProp 𝕄
  | 0, _ => Pipeline.ΦA spec0 c
  | n + 1, hn => iprop(iprop(owns (c : Thread nD τ) wM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) wM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) wM fullShare ((outsAt m c (n - 1) (by omega)).2)) ∗ (∃ r, prngReg c r)) := by
  cases n with
  | zero => exact absurd rfl hz
  | succ n => rfl

/-! ## The proof data -/

/-- The arrays as the region finds them; after the body at point t each input's buffer at its block and the
    output's at what the point leaves; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; t % 16 says which branch runs. At a first point the
    scratch comes in at anything (what the launch gave, or what the out-tile before left) and goes back at the 32
    pieces stored; at a later point it comes in at what the point before left and goes back the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 16 = 0
  · rw [outsAt_fresh m c t h0]
    unfold outFresh wFresh; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFresh c (grid0.coords t) _ _ _ _ _ _ _ _ _ _ ((isFirst_iff t).mpr h0) (fun h => (isLater_iff t).mp h h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverWFresh c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutFresh c _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFresh c (grid0.coords t) _ _ _ _ _ _ _ _ _ _ ((isFirst_iff t).mpr h0) (fun h => (isLater_iff t).mp h h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverWFresh c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutFresh c _ _ _ _ _ _ _ _ _ _ _ _ _ _ _ _)
  · rw [outsAt_cached m c t h0]
    unfold outCached; (try dsimp only)
    have hz : t.val ≠ 0 := fun hz => h0 (by rw [hz])
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runCached c (grid0.coords t) _ _ _ _ _ _ _ _ _ _ (fun h => h0 ((isFirst_iff t).mp h)) ((isLater_iff t).mpr h0) (iblk m c 0 t) _).2 _ _ Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverOutCached c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has each array of the pipeline at what the
    proof data says: an input as found, the output at the blocks the points wrote back. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as they were found. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Shared.lean ====
/-
  The grouped-quantization matmul kernel on its 8 x 16 grid (out-tile j outer, token-tile i inner), read at
  ANY float instance: what the two runs of its body share.

  The body branches on the token-tile coordinate alone. At i = 0 (the grid points t with t % 16 = 0) it dequantizes the
  out-tile's 512 x 4096 weight block group by group into the scratch buffer and accumulates the 32 partial products;
  at i ≠ 0 (every other point) it multiplies the token block by the weight block the scratch still holds. Exactly one
  of the two branches is taken at every point, so the output window is stored at every point and never idle.
-/
import proofs.«151252_j90718299226265_2_alg».proof.Proof.Gen.KernelIdeal.Launch
import proofs.«151252_j90718299226265_2_alg».proof.Proof.Gen.KernelIdeal.Skeleton
import proofs.«151252_j90718299226265_2_alg».proof.Proof.Gen.KernelIdeal.Points
import proofs.«151252_j90718299226265_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

/-- The body's first branch is taken: the token-tile coordinate is 0. -/
abbrev isFirst (i : grid0.Coords) : Prop := k0_cond1 i = 1#1
/-- The body's second branch is taken: the token-tile coordinate is not 0. -/
abbrev isLater (i : grid0.Coords) : Prop := k0_cond2 i = 1#1

/-- The token-tile coordinate of point t is t % 16: it is 0 exactly at the multiples of 16. -/
theorem isFirst_iff : ∀ t : Fin cfg0.N, isFirst (grid0.coords t) ↔ t.val % 16 = 0 :=
  (by decide +kernel : ∀ t : Fin grid0.N, isFirst (grid0.coords t) ↔ t.val % 16 = 0)
/-- And the second branch is taken at every other point. -/
theorem isLater_iff : ∀ t : Fin cfg0.N, isLater (grid0.coords t) ↔ ¬ t.val % 16 = 0 :=
  (by decide +kernel : ∀ t : Fin grid0.N, isLater (grid0.coords t) ↔ ¬ t.val % 16 = 0)

/-! ## No window is idle at any point -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- One of the two branches stores the output block at every point. -/
theorem live3 : ∀ t : Fin cfg0.N, cfg0.idle 3 (grid0.coords t) = false := by decide +kernel

/-! ## The memrefs the body is called with -/

abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
/-- The weight scratch: a whole buffer of the kernel's own, carried from point to point. -/
abbrev wM : Memref sig .tc .vmem S512x4096 .bf16 := Memref.whole cc0_scratch0
/-- The same as a view: what the scratch holds is stated through it. -/
abbrev wV : View sig .tc .vmem S512x4096 .bf16 := wM.view
/-- One staging buffer of the output window, through which its contents are stated (the choice does not matter). -/
abbrev oV : View sig .tc .vmem S512x512 .f32 := (Memref.whole cc0_stg3_0 : Memref sig .tc .vmem S512x512 .f32).view

/-- What the launch hands the region beside the windows: the weight scratch at some contents and the generator
    register at some state. -/
theorem PhiA_eq (c : Dev nD) :
    (Pipeline.ΦA spec0 c : sProp 𝕄)
      = iprop(iprop((∃ d, owns (c : Thread nD τ) wM fullShare d)) ∗ (∃ r, prngReg c r)) := by
  unfold Pipeline.ΦA; rw [scopedRest0_eq]; simp only [wM, owns_whole]; try rfl

end Cert.KernelIdeal.Body

end
-- ==== Proof.KI.RunFresh.lean ====
/-
  The body at a grid point whose token-tile coordinate is 0, the first point of an out-tile: group by group (32 groups
  of 128 input features) it converts the quantized weights to floats, subtracts the zero point 8, scales each row by
  that row's scale for the group, stores the 512 x 128 result into the group's columns of the scratch buffer, and adds
  the product of the token block's matching 128 columns with it to an accumulator that starts at zero; the accumulator
  is stored as the output block. The 32 stores tile the scratch, so it ends holding the whole dequantized weight block
  whatever it held before.
-/
import proofs.«151252_j90718299226265_2_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- On whole memrefs — the token block at x0, the quantized-weight block at x1, the scale block at x2, the output
    buffer and the weight scratch at anything — the body runs to a continuation that gets the three inputs back
    unchanged, the output buffer with the pieces L3 written (the branch's one store of the accumulator) and the scratch
    with the pieces LS written (its 32 stores, one per group): both lists are found by running the body. -/
noncomputable def runFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) :
    Σ' (L3 : List (View.Piece (Elt F) S512x512 .f32)), { LS : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0_gptq_matmul_kernel i arg2 harg2 arg3 harg3 arg4 harg4 arg5 harg5 arg6 harg6) K } := by
  refine ⟨?_, ?_, fun E K => ?run⟩
  case run =>
    simp only [cc0_gptq_matmul_kernel_eq_skeleton]; unfold cc0_gptq_matmul_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.KI.RunCached.lean ====
/-
  The body at a grid point whose token-tile coordinate is not 0: the weight block of this out-tile is already in the
  scratch buffer (the point with coordinate 0 of the same out-tile put it there), so the body loads the token block and
  the whole scratch, multiplies them contracting the 4096 input features, and stores the 512 x 512 product as the
  output block. The scratch is read and left as it was found.
-/
import proofs.«151252_j90718299226265_2_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the token block at x0, the weight scratch at xs (what the point before left), the
    quantized-weight and scale blocks at anything they hold (the branch does not read them), the output buffer at
    anything — the body runs to a continuation that gets every input and the scratch back unchanged and the output
    buffer with the pieces L3 written: the one store of the branch, found by running the body. -/
noncomputable def runCached (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec F S512x4096 .bf16) (xs : Vec F S512x4096 .bf16) :
    { L3 : List (View.Piece (Elt F) S512x512 .f32) //
      ∀ (x1 : Vec F S512x4096 .i32) (x2 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0_gptq_matmul_kernel i arg2 harg2 arg3 harg3 arg4 harg4 arg5 harg5 arg6 harg6) K } := by
  refine ⟨?_, fun x1 x2 E K => ?run⟩
  case run =>
    simp only [cc0_gptq_matmul_kernel_eq_skeleton]; unfold cc0_gptq_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.KernelIdeal.Body

end
-- ==== Proof.KI.Frame.lean ====
/-
  The frame of the grouped-quantization matmul kernel, at ANY float instance: every weakly fair execution of @main
  terminates without a fault and leaves the three argument arrays as it found them.

  The body keeps the dequantized weight block of the current out-tile in a scratch buffer from the out-tile's first
  point (token-tile 0, where it is written whole) to its last, so the invariant carried from point to point names what
  the scratch holds: after a first point, the 32 group pieces that point stored; after any other point, what the point
  before left. The output block is stored whole at every point, and written back at every point.
-/
import proofs.«151252_j90718299226265_2_alg».proof.Proof.KI.RunFresh
import proofs.«151252_j90718299226265_2_alg».proof.Proof.KI.RunCached

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves behind -/

/-- The one store of a first point covers the output block. -/
theorem coverOutFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) (y : S512x512.Idx) :
    ∃ pc ∈ (runFresh c i arg2 harg2 arg3 harg3 arg4 harg4 arg5 harg5 arg6 harg6 hc0 hc1 x0 x1 x2).1, y ∈ pc.1.set :=
  View.cover_of_tiledL (runFresh c i arg2 harg2 arg3 harg3 arg4 harg4 arg5 harg5 arg6 harg6 hc0 hc1 x0 x1 x2).1 S512x512.size (by sl_kernel_rfl) y

/-- What a first point leaves in the output buffer: its piece read back. -/
def outFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) : Vec F S512x512 .f32 :=
  oV.read (Elt F) (oV.writes (Elt F) oV.junk (runFresh c i arg2 harg2 arg3 harg3 arg4 harg4 arg5 harg5 arg6 harg6 hc0 hc1 x0 x1 x2).1)

/-- The 32 group stores of a first point (512 x 128 each, at columns 128·g) tile the scratch. -/
theorem coverWFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) (y : S512x4096.Idx) :
    ∃ pc ∈ (runFresh c i arg2 harg2 arg3 harg3 arg4 harg4 arg5 harg5 arg6 harg6 hc0 hc1 x0 x1 x2).2.1, y ∈ pc.1.set :=
  View.cover_of_tiledL (runFresh c i arg2 harg2 arg3 harg3 arg4 harg4 arg5 harg5 arg6 harg6 hc0 hc1 x0 x1 x2).2.1 S512x128.size (by sl_kernel_rfl) y

/-- What a first point leaves in the weight scratch: its 32 pieces read back. -/
def wFresh (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec F S512x4096 .bf16) (x1 : Vec F S512x4096 .i32) (x2 : Vec F S512x32 .f32) : Vec F S512x4096 .bf16 :=
  wV.read (Elt F) (wV.writes (Elt F) wV.junk (runFresh c i arg2 harg2 arg3 harg3 arg4 harg4 arg5 harg5 arg6 harg6 hc0 hc1 x0 x1 x2).2.1)

/-- The one store of a later point covers the output block. -/
theorem coverOutCached (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec F S512x4096 .bf16) (xs : Vec F S512x4096 .bf16) (y : S512x512.Idx) :
    ∃ pc ∈ (runCached c i arg2 harg2 arg3 harg3 arg4 harg4 arg5 harg5 arg6 harg6 hc0 hc1 x0 xs).1, y ∈ pc.1.set :=
  View.cover_of_tiledL (runCached c i arg2 harg2 arg3 harg3 arg4 harg4 arg5 harg5 arg6 harg6 hc0 hc1 x0 xs).1 S512x512.size (by sl_kernel_rfl) y

/-- What a later point leaves in the output buffer, given the scratch contents xs it found: its piece read back. -/
def outCached (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec F S512x4096 .bf16) (xs : Vec F S512x4096 .bf16) : Vec F S512x512 .f32 :=
  oV.read (Elt F) (oV.writes (Elt F) oV.junk (runCached c i arg2 harg2 arg3 harg3 arg4 harg4 arg5 harg5 arg6 harg6 hc0 hc1 x0 xs).1)

/-! ## Point by point -/

/-- What the output buffer and the weight scratch hold after the body at position n: at a multiple of 16 what a first
    point leaves of the point's three input blocks; elsewhere the product of the point's token block with the scratch the
    point before left, and that scratch again. -/
def outsAt (c : Dev nD) : (n : ℕ) → n < cfg0.N → Vec F S512x512 .f32 × Vec F S512x4096 .bf16
  | 0, hn => (outFresh c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) wM (Memref.isWhole_whole _) ((isFirst_iff ⟨0, hn⟩).mpr (Nat.zero_mod _)) (fun h => (isLater_iff ⟨0, hn⟩).mp h (Nat.zero_mod _)) (iblk m c 0 ⟨0, hn⟩) (iblk m c 1 ⟨0, hn⟩) (iblk m c 2 ⟨0, hn⟩), wFresh c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) wM (Memref.isWhole_whole _) ((isFirst_iff ⟨0, hn⟩).mpr (Nat.zero_mod _)) (fun h => (isLater_iff ⟨0, hn⟩).mp h (Nat.zero_mod _)) (iblk m c 0 ⟨0, hn⟩) (iblk m c 1 ⟨0, hn⟩) (iblk m c 2 ⟨0, hn⟩))
  | n + 1, hn =>
    if h0 : (n + 1) % 16 = 0 then
      (outFresh c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) wM (Memref.isWhole_whole _) ((isFirst_iff ⟨n + 1, hn⟩).mpr h0) (fun h => (isLater_iff ⟨n + 1, hn⟩).mp h h0) (iblk m c 0 ⟨n + 1, hn⟩) (iblk m c 1 ⟨n + 1, hn⟩) (iblk m c 2 ⟨n + 1, hn⟩), wFresh c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) wM (Memref.isWhole_whole _) ((isFirst_iff ⟨n + 1, hn⟩).mpr h0) (fun h => (isLater_iff ⟨n + 1, hn⟩).mp h h0) (iblk m c 0 ⟨n + 1, hn⟩) (iblk m c 1 ⟨n + 1, hn⟩) (iblk m c 2 ⟨n + 1, hn⟩))
    else
      (outCached c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) wM (Memref.isWhole_whole _) (fun h => h0 ((isFirst_iff ⟨n + 1, hn⟩).mp h)) ((isLater_iff ⟨n + 1, hn⟩).mpr h0) (iblk m c 0 ⟨n + 1, hn⟩) (outsAt c n (Nat.lt_of_succ_lt hn)).2, (outsAt c n (Nat.lt_of_succ_lt hn)).2)

theorem outsAt_fresh (c : Dev nD) (t : Fin cfg0.N) (h0 : t.val % 16 = 0) :
    outsAt m c t.val t.isLt = (outFresh c (grid0.coords t) (ms0 t) (hs0 t) (ms1 t) (hs1 t) (ms2 t) (hs2 t) (ms3 t) (hs3 t) wM (Memref.isWhole_whole _) ((isFirst_iff t).mpr h0) (fun h => (isLater_iff t).mp h h0) (iblk m c 0 t) (iblk m c 1 t) (iblk m c 2 t), wFresh c (grid0.coords t) (ms0 t) (hs0 t) (ms1 t) (hs1 t) (ms2 t) (hs2 t) (ms3 t) (hs3 t) wM (Memref.isWhole_whole _) ((isFirst_iff t).mpr h0) (fun h => (isLater_iff t).mp h h0) (iblk m c 0 t) (iblk m c 1 t) (iblk m c 2 t)) := by
  obtain ⟨n, hn⟩ := t
  cases n with
  | zero => exact rfl
  | succ n => exact (dif_pos h0).trans rfl

theorem outsAt_cached (c : Dev nD) (t : Fin cfg0.N) (h0 : ¬t.val % 16 = 0) :
    outsAt m c t.val t.isLt = (outCached c (grid0.coords t) (ms0 t) (hs0 t) (ms1 t) (hs1 t) (ms2 t) (hs2 t) (ms3 t) (hs3 t) wM (Memref.isWhole_whole _) (fun h => h0 ((isFirst_iff t).mp h)) ((isLater_iff t).mpr h0) (iblk m c 0 t) (outsAt m c (t.val - 1) (Nat.lt_of_le_of_lt (Nat.sub_le _ _) t.isLt)).2, (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- The invariant before position n: before the first point what the launch hands over (the scratch at anything);
    afterwards the scratch at what the point before left, and the generator register at some state. -/
def PhiS (c : Dev nD) : (n : ℕ) → n ≤ cfg0.N → sProp 𝕄
  | 0, _ => Pipeline.ΦA spec0 c
  | n + 1, hn => iprop(iprop(owns (c : Thread nD τ) wM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) wM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) wM fullShare ((outsAt m c (n - 1) (by omega)).2)) ∗ (∃ r, prngReg c r)) := by
  cases n with
  | zero => exact absurd rfl hz
  | succ n => rfl

/-! ## The proof data -/

/-- The arrays as the region finds them; after the body at point t each input's buffer at its block and the
    output's at what the point leaves; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; t % 16 says which branch runs. At a first point the
    scratch comes in at anything (what the launch gave, or what the out-tile before left) and goes back at the 32
    pieces stored; at a later point it comes in at what the point before left and goes back the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 16 = 0
  · rw [outsAt_fresh m c t h0]
    unfold outFresh wFresh; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFresh c (grid0.coords t) _ _ _ _ _ _ _ _ _ _ ((isFirst_iff t).mpr h0) (fun h => (isLater_iff t).mp h h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverWFresh c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutFresh c _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFresh c (grid0.coords t) _ _ _ _ _ _ _ _ _ _ ((isFirst_iff t).mpr h0) (fun h => (isLater_iff t).mp h h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverWFresh c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutFresh c _ _ _ _ _ _ _ _ _ _ _ _ _ _ _ _)
  · rw [outsAt_cached m c t h0]
    unfold outCached; (try dsimp only)
    have hz : t.val ≠ 0 := fun hz => h0 (by rw [hz])
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runCached c (grid0.coords t) _ _ _ _ _ _ _ _ _ _ (fun h => h0 ((isFirst_iff t).mp h)) ((isLater_iff t).mpr h0) (iblk m c 0 t) _).2 _ _ Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverOutCached c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has each array of the pipeline at what the
    proof data says: an input as found, the output at the blocks the points wrote back. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as they were found. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibGroupedSum.lean ====
/-
  A sum over consecutive positions, grouped.

  The sum of f over the first K·n natural numbers is the sum, over the n consecutive groups of K positions, of each group's
  sum: position K·g + k is the k-th of group g. In any additive commutative monoid, so with no finiteness or
  cancellation asked: it holds for the extended reals as it stands. This is what equates one contraction over K·n
  features with the same contraction accumulated group by group.
-/
import Idealize.ShloMosaic.Lib.ValueIdx

namespace Cert.LibGroupedSum

/-- The sum over the first K·n positions is the sum over the n groups of the sums over each group's K positions. -/
theorem sum_range_mul_groups {M : Type*} [AddCommMonoid M] (K : ℕ) (f : ℕ → M) :
    ∀ n : ℕ, ∑ i ∈ Finset.range (K * n), f i = ∑ g ∈ Finset.range n, ∑ k : Fin K, f (K * g + k.val)
  | 0 => by simp
  | n + 1 => by
    have h1 : ∑ i ∈ Finset.range (K * (n + 1)), f i
        = ∑ i ∈ Finset.range (K * n), f i + ∑ k ∈ Finset.range K, f (K * n + k) := by
      rw [show K * (n + 1) = K * n + K from by ring, Finset.sum_range_add]
    rw [h1, sum_range_mul_groups K f n, Finset.sum_range_succ (fun g => ∑ k : Fin K, f (K * g + k.val)) n]
    exact congrArg (_ + ·) (Finset.sum_range (fun k => f (K * n + k)))

end Cert.LibGroupedSum
-- ==== Proof.Spec.lean ====
/-
  The grouped-quantization product, as mathematics.

  A weight row holds 4096 quantized integers in 32 groups of 128; entry i of the row is dequantized as
  (q_i - 8) · s_(i / 128), the scale of its group, and entry (t, o) of the product is the sum over i of x[t, i] times the
  dequantized weight [o, i]. Columns are named by natural numbers, so that the position 128·g + k of the k-th entry of
  group g is plain arithmetic; a row read outside its columns gives a default that no sum below ever reaches.

  The one law the two programs differ by: a sum over 4096 columns is the sum over the 32 groups of the sums over each
  group's 128 columns. Addition of extended reals is commutative and associative, so this needs no finiteness.
-/
import Idealize.ShloMosaic.PureOps.Ideal.Laws
import Idealize.ShloMosaic.Lib.ValueIdx
import proofs.«151252_j90718299226265_2_alg».proof.Proof.LibGroupedSum

noncomputable section

namespace Cert.GroupedProduct

open Idealize.ShloMosaic Idealize.ShloMosaic.ValueIdx

/-- Row r of a matrix with C columns, read at column position i; the default d outside the row. -/
def rowAt {R C : Nat} {α : Type} (X : (⟨2, ![R, C]⟩ : Shape).Idx → α) (d : α) (r : Fin R) (i : ℕ) : α :=
  if h : i < C then X (ix2 r ⟨i, h⟩) else d

theorem rowAt_of_lt {R C : Nat} {α : Type} (X : (⟨2, ![R, C]⟩ : Shape).Idx → α) (d : α) (r : Fin R) (i : ℕ) (h : i < C) :
    rowAt X d r i = X (ix2 r ⟨i, h⟩) := dif_pos h

theorem rowAt_fin {R C : Nat} {α : Type} (X : (⟨2, ![R, C]⟩ : Shape).Idx → α) (d : α) (r : Fin R) (i : Fin C) :
    rowAt X d r i.val = X (ix2 r i) := dif_pos i.isLt

/-- Two matrices whose rows r and r' agree entry by entry read the same at every column position. -/
theorem rowAt_congr {R R' C : Nat} {α : Type} (X : (⟨2, ![R, C]⟩ : Shape).Idx → α) (X' : (⟨2, ![R', C]⟩ : Shape).Idx → α)
    (d : α) (r : Fin R) (r' : Fin R') (h : ∀ i : Fin C, X (ix2 r i) = X' (ix2 r' i)) (i : ℕ) :
    rowAt X d r i = rowAt X' d r' i := by
  unfold rowAt
  by_cases hi : i < C
  · rw [dif_pos hi, dif_pos hi]; exact h ⟨i, hi⟩
  · rw [dif_neg hi, dif_neg hi]

/-- The zero point of the 4-bit symmetric quantization, 8, as the f32 literal both programs print. -/
abbrev zeroPoint : EReal := Ideal.ofBits .f32 0x41000000#32

/-- One dequantized weight: the quantized integer less the zero point, times the scale. -/
def dequant (q : BitVec 32) (s : EReal) : EReal := (((q.toInt : ℝ) : EReal) - zeroPoint) * s

/-- Entry i of row o of the dequantized weight matrix: the scale is that of the entry's group, i / 128. -/
def weightAt {N : Nat} (Q : (⟨2, ![N, 4096]⟩ : Shape).Idx → BitVec 32) (Sc : (⟨2, ![N, 32]⟩ : Shape).Idx → EReal)
    (o : Fin N) (i : ℕ) : EReal :=
  dequant (rowAt Q 0#32 o i) (rowAt Sc 0 o (i / 128))

/-- Entry (t, o) of the product of x with the transposed dequantized weights. -/
def entry {T N : Nat} (X : (⟨2, ![T, 4096]⟩ : Shape).Idx → EReal) (Q : (⟨2, ![N, 4096]⟩ : Shape).Idx → BitVec 32)
    (Sc : (⟨2, ![N, 32]⟩ : Shape).Idx → EReal) (t : Fin T) (o : Fin N) : EReal :=
  ∑ i ∈ Finset.range 4096, rowAt X 0 t i * weightAt Q Sc o i

/-- The contribution of group g to an entry whose factors by column position are f. -/
def groupSum (f : ℕ → EReal) (g : ℕ) : EReal := ∑ k : Fin 128, f (128 * g + k.val)

/-- A sum over the first 128·n columns is the sum over the first n groups of each group's sum. -/
theorem sum_groups (f : ℕ → EReal) (n : ℕ) : ∑ i ∈ Finset.range (128 * n), f i = ∑ g ∈ Finset.range n, groupSum f g :=
  Cert.LibGroupedSum.sum_range_mul_groups 128 f n

/-- So an entry is the sum of its 32 group contributions. -/
theorem entry_eq_groups {T N : Nat} (X : (⟨2, ![T, 4096]⟩ : Shape).Idx → EReal) (Q : (⟨2, ![N, 4096]⟩ : Shape).Idx → BitVec 32)
    (Sc : (⟨2, ![N, 32]⟩ : Shape).Idx → EReal) (t : Fin T) (o : Fin N) :
    entry X Q Sc t o = ∑ g ∈ Finset.range 32, groupSum (fun i => rowAt X 0 t i * weightAt Q Sc o i) g :=
  sum_groups (fun i => rowAt X 0 t i * weightAt Q Sc o i) 32

/-- An entry as a sum over the 4096 columns as a finite type: the form a single whole contraction takes. -/
theorem entry_eq_sum_fin {T N : Nat} (X : (⟨2, ![T, 4096]⟩ : Shape).Idx → EReal) (Q : (⟨2, ![N, 4096]⟩ : Shape).Idx → BitVec 32)
    (Sc : (⟨2, ![N, 32]⟩ : Shape).Idx → EReal) (t : Fin T) (o : Fin N) :
    entry X Q Sc t o = ∑ i : Fin 4096, X (ix2 t i) * weightAt Q Sc o i.val := by
  unfold entry
  rw [Finset.sum_range]
  exact Finset.sum_congr rfl fun i _ => by rw [rowAt_fin]

/-- Within group g, whose columns start at c = 128·g, the scale is the group's: (c + k) / 128 = g for k < 128. -/
theorem weightAt_group {N : Nat} (Q : (⟨2, ![N, 4096]⟩ : Shape).Idx → BitVec 32) (Sc : (⟨2, ![N, 32]⟩ : Shape).Idx → EReal)
    (o : Fin N) (g c : ℕ) (hc : c = 128 * g) (k : Fin 128) :
    weightAt Q Sc o (c + k.val) = dequant (rowAt Q 0#32 o (c + k.val)) (rowAt Sc 0 o g) := by
  subst hc
  unfold weightAt
  rw [show (128 * g + k.val) / 128 = g from by have := k.isLt; omega]

/-- Group g's contribution to an entry, over the group's own 128 columns. -/
theorem groupSum_weight {T N : Nat} (X : (⟨2, ![T, 4096]⟩ : Shape).Idx → EReal) (Q : (⟨2, ![N, 4096]⟩ : Shape).Idx → BitVec 32)
    (Sc : (⟨2, ![N, 32]⟩ : Shape).Idx → EReal) (t : Fin T) (o : Fin N) (g c : ℕ) (hc : c = 128 * g) :
    groupSum (fun i => rowAt X 0 t i * weightAt Q Sc o i) g
      = ∑ k : Fin 128, rowAt X 0 t (c + k.val) * dequant (rowAt Q 0#32 o (c + k.val)) (rowAt Sc 0 o g) := by
  subst hc
  unfold groupSum
  exact Finset.sum_congr rfl fun k _ => by
    show rowAt X 0 t (128 * g + k.val) * weightAt Q Sc o (128 * g + k.val) = _
    rw [weightAt_group Q Sc o g _ rfl k]

/-- The same fact in the form a stored chunk meets it: the chunk's entry (r, k), dequantized with group g's scale, is
    the weight at row r' = r and column n = c + k of the block, when the chunk starts at column c = 128·g. -/
theorem piece_weight {N : Nat} (Q : (⟨2, ![N, 4096]⟩ : Shape).Idx → BitVec 32) (Sc : (⟨2, ![N, 32]⟩ : Shape).Idx → EReal)
    (r : Fin N) (k : Fin 128) (g c : ℕ) (r' : Fin N) (n : ℕ) (hr : r'.val = 0 + 1 * r.val) (hn : n = c + 1 * k.val)
    (hc : c = 128 * g) :
    dequant (rowAt Q 0#32 r (c + k.val)) (rowAt Sc 0 r g) = weightAt Q Sc r' n := by
  obtain rfl : r' = r := Fin.ext (by omega)
  obtain rfl : n = c + k.val := by omega
  exact (weightAt_group Q Sc r' g c hc k).symm

/-- The entry depends on the matrices only through row t of x and row o of the quantized weights and scales. -/
theorem entry_congr {T T' N N' : Nat} (X : (⟨2, ![T, 4096]⟩ : Shape).Idx → EReal) (X' : (⟨2, ![T', 4096]⟩ : Shape).Idx → EReal)
    (Q : (⟨2, ![N, 4096]⟩ : Shape).Idx → BitVec 32) (Q' : (⟨2, ![N', 4096]⟩ : Shape).Idx → BitVec 32)
    (Sc : (⟨2, ![N, 32]⟩ : Shape).Idx → EReal) (Sc' : (⟨2, ![N', 32]⟩ : Shape).Idx → EReal)
    (t : Fin T) (t' : Fin T') (o : Fin N) (o' : Fin N')
    (hX : ∀ i : Fin 4096, X (ix2 t i) = X' (ix2 t' i)) (hQ : ∀ i : Fin 4096, Q (ix2 o i) = Q' (ix2 o' i))
    (hS : ∀ i : Fin 32, Sc (ix2 o i) = Sc' (ix2 o' i)) :
    entry X Q Sc t o = entry X' Q' Sc' t' o' := by
  unfold entry weightAt
  refine Finset.sum_congr rfl fun i _ => ?_
  rw [rowAt_congr X X' 0 t t' hX i, rowAt_congr Q Q' 0#32 o o' hQ i, rowAt_congr Sc Sc' 0 o o' hS (i / 128)]

end Cert.GroupedProduct

end
-- ==== Proof.LibRowsContract.lean ====
/-
  A product of rows read at one entry.

  For the dimension numbers of an [M, K] by [N, K] product that contracts the second axis of both operands (no batch
  axis) — every row of the left operand against every row of the right one — the sum over the contraction index that the
  exact product takes at result entry (p, q) is the sum over k < K of l[p, k] · r[q, k]. Stated for the sum itself, for a
  matrix unit's product into a zero accumulator, and for a host dot product, at the exact (extended real) reading of floats.
-/
import Idealize.ShloMosaic.PureOps.Ideal.Laws
import Idealize.ShloMosaic.Lib.ValueIdx

noncomputable section

namespace Cert.LibRowsContract

open Idealize.ShloMosaic Idealize.ShloMosaic.ValueIdx

/-- The dimension numbers of a product of rows: [M, K] with [N, K], both second axes contracted. -/
abbrev rowsDims (M K N : Nat) (h : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := h

variable (M K N : Nat) (h : DotDims.WF ⟨2, ![M, K]⟩ ⟨2, ![N, K]⟩ ⟨2, ![M, N]⟩ [1] [1] [0] [0] [] [])

/-- The contraction index has one axis, of extent K. -/
theorem rows_rank : (rowsDims M K N h).contr.rank = 1 := rfl
theorem rows_size : (rowsDims M K N h).contr.size ⟨0, Nat.one_pos⟩ = K := rfl

/-- At result entry (p, q) and contraction position k the left operand is read at (p, k) … -/
theorem rows_lhsIdx (p : Fin M) (q : Fin N) (k : Fin K) :
    (rowsDims M K N h).lhsIdx (ix2 p q) ((contrEquiv1 (rowsDims M K N h) K rfl rfl).symm k) = ix2 p k :=
  funext fun a => Fin.ext (by
    have hk := contrEquiv1_symm_val (rowsDims M K N h) K rfl rfl k
    match a with
    | ⟨0, _⟩ => rfl
    | ⟨1, _⟩ => exact ((rowsDims M K N h).lhsIdx_val_of_single rfl _ _).trans hk)

/-- … and the right operand at (q, k). -/
theorem rows_rhsIdx (p : Fin M) (q : Fin N) (k : Fin K) :
    (rowsDims M K N h).rhsIdx (ix2 p q) ((contrEquiv1 (rowsDims M K N h) K rfl rfl).symm k) = ix2 q k :=
  funext fun a => Fin.ext (by
    have hk := contrEquiv1_symm_val (rowsDims M K N h) K rfl rfl k
    match a with
    | ⟨0, _⟩ => rfl
    | ⟨1, _⟩ => exact ((rowsDims M K N h).rhsIdx_val_of_single rfl _ _).trans hk)

/-- The contraction sum at entry (p, q) is the sum over k of l[p, k] · r[q, k]. -/
theorem rows_sum (l : (⟨2, ![M, K]⟩ : Shape).Idx → EReal) (r : (⟨2, ![N, K]⟩ : Shape).Idx → EReal)
    (p : Fin M) (q : Fin N) :
    ∑ k : (rowsDims M K N h).contr.Idx,
        l ((rowsDims M K N h).lhsIdx (ix2 p q) k) * r ((rowsDims M K N h).rhsIdx (ix2 p q) k)
      = ∑ k : Fin K, l (ix2 p k) * r (ix2 q k) := by
  rw [← Equiv.sum_comp (contrEquiv1 (rowsDims M K N h) K rfl rfl).symm]
  refine Finset.sum_congr rfl fun k _ => ?_
  rw [rows_lhsIdx, rows_rhsIdx]

/-- A matrix unit's product of rows into the zero accumulator, at entry (p, q). -/
theorem matmul_rows_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (rowsDims M K N h) prec l r (constant ⟨2, ![M, N]⟩ .f32 0x00000000#32) (ix2 p q)
      = ∑ k : Fin K, l (ix2 p k) * r (ix2 q k) :=
  (Ideal.matmul_constant_zero_apply (rowsDims M K N h) prec l r (ix2 p q)).trans (rows_sum M K N h l r p q)

/-- A host dot product of rows, at entry (p, q). -/
theorem dotGeneral_rows_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (rowsDims M K N h) prec sched l r (ix2 p q) = ∑ k : Fin K, l (ix2 p k) * r (ix2 q k) :=
  (Ideal.dotGeneral_apply (rowsDims M K N h) prec sched l r (ix2 p q)).trans (rows_sum M K N h l r p q)

end Cert.LibRowsContract

end
-- ==== Proof.KI.Blocks.lean ====
/-
  The kernel's vector operations on one block, read at an entry, at the exact (extended real) reading of floats.

  Three shapes recur 32 times in the body, once per group of 128 input features: the 512 x 128 chunk of quantized weights
  loaded at columns c .. c + 127; its dequantization, (q - 8) times the row's scale for the group (a change of float
  format is the identity on extended reals); and the product of the token block's same columns with it, whose entry
  (p, q) is the sum over the group's 128 columns. A later point instead takes one product over all 4096 columns.
-/
import proofs.«151252_j90718299226265_2_alg».proof.Proof.Gen.KernelIdeal.Skeleton
import proofs.«151252_j90718299226265_2_alg».proof.Proof.Spec
import proofs.«151252_j90718299226265_2_alg».proof.Proof.LibRowsContract
import Idealize.ShloMosaic.Lib.Pipeline.Value
import Idealize.ShloMosaic.Lib.Pipeline.FrameBody

set_option maxRecDepth 16384

noncomputable section

namespace Cert.KernelIdeal.Val

open Idealize.ShloMosaic Idealize.ShloMosaic.ValueIdx Cert.KernelIdeal Cert.KernelIdeal.Gen Cert.GroupedProduct

/-- A 128-column chunk at column c lies inside the 4096 columns. -/
theorem chunk_bound {c : ℕ} (hs : S512x4096.Slices ![0, c] S512x128) : c + 128 ≤ 4096 := by
  obtain ⟨_, hb⟩ := hs; exact hb 1

/-- The product of the token block's columns c .. c + 127 with a 512 x 128 weight chunk, into the zero accumulator:
    entry (p, q) is the sum over the chunk's columns k of x[p, c + k] · w[q, k]. -/
theorem group_matmul (v8 : FVec Ideal S512x4096 .bf16) (w : FVec Ideal S512x128 .bf16) (c : ℕ)
    (hs : S512x4096.Slices ![0, c] S512x128) (p q : Fin 512) :
    matmul dot_S512x128_S512x128_S512x512_1_1_0_0_n_n none (extractStridedSlice S512x128 ![0, c] v8 hs) w
        (constant S512x512 .f32 0x00000000#32) (ix2 p q)
      = ∑ k : Fin 128, rowAt v8 0 p (c + k.val) * w (ix2 q k) := by
  refine (Cert.LibRowsContract.matmul_rows_apply 512 128 512 _ none (extractStridedSlice S512x128 ![0, c] v8 hs) w p q).trans ?_
  refine Finset.sum_congr rfl fun k _ => ?_
  have hc := chunk_bound hs
  have hk : c + k.val < 4096 := by have := k.isLt; omega
  rw [rowAt_of_lt v8 0 p _ hk]
  refine congrArg (· * w (ix2 q k)) ?_
  exact extractStridedSlice_apply ![0, c] v8 hs (ix2 p k) (ix2 p ⟨c + k.val, hk⟩) (fun a => by
    match a with
    | ⟨0, _⟩ => exact (Nat.zero_add _).symm
    | ⟨1, _⟩ => rfl)

/-- A dequantized chunk at (q, k): the quantized integer there less the zero point, times row q's scale for group g. -/
theorem dequant_chunk (v6 : Vec Ideal S512x32 .f32) (chunk : Vec Ideal S512x128 .i32) (g : ℕ)
    (hs : S512x32.Slices ![0, g] S512x1) (hb : S512x1.Broadcasts S512x128) (hlt : FTy.bf16.bits < FTy.f32.bits)
    (q : Fin 512) (k : Fin 128) :
    (truncf .bf16 (mulf (subf (sitofp .f32 chunk) (broadcast S512x128 (Scalar.ofBits .f32 0x41000000#32)))
        (broadcastTo S512x128 (extractStridedSlice S512x1 ![0, g] v6 hs) hb)) hlt : FVec Ideal S512x128 .bf16) (ix2 q k)
      = dequant (chunk (ix2 q k)) (rowAt v6 0 q g) := by
  have hg : g < 32 := by obtain ⟨_, hb'⟩ := hs; exact hb' 1
  rw [rowAt_of_lt v6 0 q g hg]
  show ((((chunk (ix2 q k)).toInt : ℝ) : EReal) - Ideal.ofBits .f32 0x41000000#32)
      * broadcastTo S512x128 (extractStridedSlice S512x1 ![0, g] v6 hs) hb (ix2 q k) = _
  unfold dequant zeroPoint
  refine congrArg (fun z : EReal => ((((chunk (ix2 q k)).toInt : ℝ) : EReal) - Ideal.ofBits .f32 0x41000000#32) * z) ?_
  rw [broadcastTo_apply _ hb (ix2 q k) (ix2 q (0 : Fin 1)) (fun a => by
    match a with
    | ⟨0, _⟩ => rfl
    | ⟨1, _⟩ => rfl)]
  exact extractStridedSlice_apply ![0, g] v6 hs (ix2 q (0 : Fin 1)) (ix2 q ⟨g, hg⟩) (fun a => by
    match a with
    | ⟨0, _⟩ => exact (Nat.zero_add _).symm
    | ⟨1, _⟩ => rfl)

/-- The chunk of quantized weights loaded at columns c .. c + 127, at (q, k): the block's row q at column c + k. -/
theorem chunk_load (x1 : Vec Ideal S512x4096 .i32) (c : ℕ) (inb : ∀ a, (![0, c] : Fin 2 → ℕ) a + (![512, 128] : Fin 2 → ℕ) a ≤ S512x4096.size a)
    (q : Fin 512) (k : Fin 128) :
    View.ld x1 (Rect.unit (s := S512x4096) ![0, c] ![512, 128] inb) (ix2 q k) = rowAt x1 0#32 q (c + k.val) := by
  have hc : c + 128 ≤ 4096 := inb 1
  have hk : c + k.val < 4096 := by have := k.isLt; omega
  rw [rowAt_of_lt x1 0#32 q _ hk]
  show x1 ((Rect.unit (s := S512x4096) ![0, c] ![512, 128] inb).idx (ix2 q k)) = _
  refine congrArg x1 (funext fun a => Fin.ext ?_)
  match a with
  | ⟨0, _⟩ => show 0 + 1 * q.val = q.val; omega
  | ⟨1, _⟩ => show c + 1 * k.val = c + k.val; omega

/-- The two together, as the body has them: the dequantization of the chunk loaded at columns c .. c + 127, at (q, k), is
    row q's quantized integer at column c + k less the zero point, times row q's scale for group g. -/
theorem dequant_load (v6 : Vec Ideal S512x32 .f32) (x1 : Vec Ideal S512x4096 .i32) (c g : ℕ)
    (inb : ∀ a, (![0, c] : Fin 2 → ℕ) a + (![512, 128] : Fin 2 → ℕ) a ≤ S512x4096.size a)
    (hs : S512x32.Slices ![0, g] S512x1) (hb : S512x1.Broadcasts S512x128) (hlt : FTy.bf16.bits < FTy.f32.bits)
    (q : Fin 512) (k : Fin 128) :
    (truncf .bf16 (mulf (subf (sitofp .f32 (View.ld x1 (Rect.unit (s := S512x4096) ![0, c] ![512, 128] inb) : Vec Ideal S512x128 .i32))
          (broadcast S512x128 (Scalar.ofBits .f32 0x41000000#32)))
        (broadcastTo S512x128 (extractStridedSlice S512x1 ![0, g] v6 hs) hb)) hlt : FVec Ideal S512x128 .bf16) (ix2 q k)
      = dequant (rowAt x1 0#32 q (c + k.val)) (rowAt v6 0 q g) :=
  (dequant_chunk v6 (View.ld x1 (Rect.unit (s := S512x4096) ![0, c] ![512, 128] inb)) g hs hb hlt q k).trans
    (congrArg (fun z => dequant z (rowAt v6 0 q g)) (chunk_load x1 c inb q k))

/-- A later point's one product over all 4096 columns: entry (p, q) is the sum over i of x[p, i] · w[q, i]. -/
theorem whole_product (x0 xs : Vec Ideal S512x4096 .bf16) (p q : Fin 512) :
    k0_pay4 x0 xs (ix2 p q) = ∑ i : Fin 4096, x0 (ix2 p i) * xs (ix2 q i) := by
  unfold k0_pay4
  rw [shapeCast_self]
  exact Cert.LibRowsContract.matmul_rows_apply 512 4096 512 _ none x0 xs p q

end Cert.KernelIdeal.Val

end
-- ==== Proof.KI.OutValue.lean ====
/-
  What the output block holds after each branch of the body, entry by entry, at the exact (extended real) reading of
  floats. At a first point of an out-tile the accumulator stored is 0 plus the 32 group products in order, which is the
  product's entry regrouped; at a later point it is the product of the token block with whatever the scratch held, over
  all 4096 columns at once.
-/
import proofs.«151252_j90718299226265_2_alg».proof.Proof.KI.Frame
import proofs.«151252_j90718299226265_2_alg».proof.Proof.KI.Blocks

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KernelIdeal.Body Cert.GroupedProduct

theorem hz : (![0, 0] : Fin 2 → Nat) = fun _ => 0 := funext fun a => by fin_cases a <;> rfl

/-- A later point's output block at (p, q): the sum over all columns of x[p, i] times the scratch's [q, i]. -/
theorem outCached_apply (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec Ideal S512x4096 .bf16) (xs : Vec Ideal S512x4096 .bf16) (p q : Fin 512) :
    outCached (F := Ideal) c i arg2 harg2 arg3 harg3 arg4 harg4 arg5 harg5 arg6 harg6 hc0 hc1 x0 xs (ix2 p q) = ∑ j : Fin 4096, x0 (ix2 p j) * xs (ix2 q j) := by
  unfold outCached
  rw [View.read_writes_eq_canon _ _ _ (coverOutCached c i arg2 harg2 arg3 harg3 arg4 harg4 arg5 harg5 arg6 harg6 hc0 hc1 x0 xs)]
  unfold runCached
  dsimp only
  rw [View.canon_unit_zero hz]
  simp only [View.readAt_eq_ld, harg2.read_unread, harg6.read_unread, View.ld_unit_zero (S := S512x4096) hz]
  exact whole_product x0 xs p q

set_option maxHeartbeats 8000000 in
/-- A first point's output block at (p, q) is the grouped-quantization product's entry of the point's three blocks. -/
theorem outFresh_apply (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec Ideal S512x4096 .bf16) (x1 : Vec Ideal S512x4096 .i32) (x2 : Vec Ideal S512x32 .f32) (p q : Fin 512) :
    outFresh (F := Ideal) c i arg2 harg2 arg3 harg3 arg4 harg4 arg5 harg5 arg6 harg6 hc0 hc1 x0 x1 x2 (ix2 p q) = entry x0 x1 x2 p q := by
  unfold outFresh
  rw [View.read_writes_eq_canon _ _ _ (coverOutFresh c i arg2 harg2 arg3 harg3 arg4 harg4 arg5 harg5 arg6 harg6 hc0 hc1 x0 x1 x2)]
  unfold runFresh
  dsimp only
  sl_unfold_words
  rw [View.canon_unit_zero hz]
  simp only [View.readAt_eq_ld, harg2.read_unread, harg3.read_unread, harg4.read_unread,
    View.ld_unit_zero (S := S512x4096) hz, View.ld_unit_zero (S := S512x32) hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, shapeCast_self, addf_apply, broadcast_apply, group_matmul, dequant_load]
  simp only [Ideal.ofBits_def, Ideal.ofBits_zero_f32]
  rw [entry_eq_groups]
  simp only [Finset.sum_range_succ, Finset.sum_range_zero]
  rw [groupSum_weight x0 x1 x2 p q 0 0 rfl,
    groupSum_weight x0 x1 x2 p q 1 128 rfl,
    groupSum_weight x0 x1 x2 p q 2 256 rfl,
    groupSum_weight x0 x1 x2 p q 3 384 rfl,
    groupSum_weight x0 x1 x2 p q 4 512 rfl,
    groupSum_weight x0 x1 x2 p q 5 640 rfl,
    groupSum_weight x0 x1 x2 p q 6 768 rfl,
    groupSum_weight x0 x1 x2 p q 7 896 rfl,
    groupSum_weight x0 x1 x2 p q 8 1024 rfl,
    groupSum_weight x0 x1 x2 p q 9 1152 rfl,
    groupSum_weight x0 x1 x2 p q 10 1280 rfl,
    groupSum_weight x0 x1 x2 p q 11 1408 rfl,
    groupSum_weight x0 x1 x2 p q 12 1536 rfl,
    groupSum_weight x0 x1 x2 p q 13 1664 rfl,
    groupSum_weight x0 x1 x2 p q 14 1792 rfl,
    groupSum_weight x0 x1 x2 p q 15 1920 rfl,
    groupSum_weight x0 x1 x2 p q 16 2048 rfl,
    groupSum_weight x0 x1 x2 p q 17 2176 rfl,
    groupSum_weight x0 x1 x2 p q 18 2304 rfl,
    groupSum_weight x0 x1 x2 p q 19 2432 rfl,
    groupSum_weight x0 x1 x2 p q 20 2560 rfl,
    groupSum_weight x0 x1 x2 p q 21 2688 rfl,
    groupSum_weight x0 x1 x2 p q 22 2816 rfl,
    groupSum_weight x0 x1 x2 p q 23 2944 rfl,
    groupSum_weight x0 x1 x2 p q 24 3072 rfl,
    groupSum_weight x0 x1 x2 p q 25 3200 rfl,
    groupSum_weight x0 x1 x2 p q 26 3328 rfl,
    groupSum_weight x0 x1 x2 p q 27 3456 rfl,
    groupSum_weight x0 x1 x2 p q 28 3584 rfl,
    groupSum_weight x0 x1 x2 p q 29 3712 rfl,
    groupSum_weight x0 x1 x2 p q 30 3840 rfl,
    groupSum_weight x0 x1 x2 p q 31 3968 rfl]

end Cert.KernelIdeal.Val

end
-- ==== Proof.KI.ScratchValue.lean ====
/-
  What the scratch holds after a first point of an out-tile, entry by entry, at the exact (extended real) reading of
  floats: the 32 chunks stored are the 32 column blocks of ONE function of the scratch's index, the dequantized weight
  (q[r, n] - 8) · s[r, n / 128], so the scratch ends holding that function whatever it held.
-/
import proofs.«151252_j90718299226265_2_alg».proof.Proof.KI.Frame
import proofs.«151252_j90718299226265_2_alg».proof.Proof.KI.Blocks

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KernelIdeal.Body Cert.GroupedProduct

theorem hzW : (![0, 0] : Fin 2 → Nat) = fun _ => 0 := funext fun a => by fin_cases a <;> rfl

set_option maxHeartbeats 4000000 in
/-- A first point leaves the scratch holding the dequantized weight block: entry (q, n) is the weight at row q, column n. -/
theorem wFresh_apply (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec Ideal S512x4096 .bf16) (x1 : Vec Ideal S512x4096 .i32) (x2 : Vec Ideal S512x32 .f32) (q : Fin 512) (n : Fin 4096) :
    wFresh (F := Ideal) c i arg2 harg2 arg3 harg3 arg4 harg4 arg5 harg5 arg6 harg6 hc0 hc1 x0 x1 x2 (ix2 q n) = weightAt x1 x2 q n.val := by
  unfold wFresh
  rw [View.read_writes_eq_canon _ _ _ (coverWFresh c i arg2 harg2 arg3 harg3 arg4 harg4 arg5 harg5 arg6 harg6 hc0 hc1 x0 x1 x2)]
  refine (View.canon_apply_of_pieces
    (fun y : S512x4096.Idx => weightAt x1 x2 (⟨(y 0).val, (y 0).isLt⟩ : Fin 512) (y 1).val) _ ?_ (ix2 q n)
    (coverWFresh c i arg2 harg2 arg3 harg3 arg4 harg4 arg5 harg5 arg6 harg6 hc0 hc1 x0 x1 x2 (ix2 q n))).trans rfl
  unfold runFresh
  dsimp only
  sl_unfold_words
  intro pc hpc x
  simp only [List.mem_cons, List.mem_nil_iff, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    obtain ⟨r, k, rfl⟩ : ∃ (r : Fin 512) (k : Fin 128), x = ix2 r k := ⟨x 0, x 1, eq_ix2 x⟩
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, shapeCast_self, View.readAt_eq_ld, harg3.read_unread, harg4.read_unread,
      View.ld_unit_zero (S := S512x32) hzW, dequant_load]
    exact piece_weight x1 x2 r k _ _ _ _ rfl rfl rfl

end Cert.KernelIdeal.Val

end
-- ==== Proof.KI.Value.lean ====
/-
  The idealized kernel's result array, entry by entry, at the exact (extended real) reading of floats.

  Point t of the 8 x 16 grid has out-tile t / 16 and token-tile t % 16: its token block is rows 512·(t % 16) .. of x, its
  quantized-weight and scale blocks are rows 512·(t / 16) .. of theirs, and its output block is rows 512·(t % 16) ..,
  columns 512·(t / 16) .. of the result. By induction on the point, the scratch after point t holds the dequantized weights
  of out-tile t / 16 (written at the out-tile's first point, kept since) and the output block holds the product's entries:
  at a first point by the accumulated groups, at a later one by the single contraction against the scratch. The 128 blocks
  tile the result, so the result array is the grouped-quantization product of the argument arrays.
-/
import proofs.«151252_j90718299226265_2_alg».proof.Proof.KI.OutValue
import proofs.«151252_j90718299226265_2_alg».proof.Proof.KI.ScratchValue
import Idealize.ShloMosaic.Lib.StableHlo.Run

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KernelIdeal.Body Cert.GroupedProduct

variable (m : (ℓ : Loc nD τ sig) → Buf (Elt Ideal) ℓ) (ρ : Dev nD → PrngReg)

/-- Row p of tile b, in an array of 8192 rows (of 4096 rows): 512·b + p. -/
def xRow (b : ℕ) (p : Fin 512) : Fin 8192 := ⟨(512 * b + p.val) % 8192, Nat.mod_lt _ (by norm_num)⟩
def wRow (b : ℕ) (q : Fin 512) : Fin 4096 := ⟨(512 * b + q.val) % 4096, Nat.mod_lt _ (by norm_num)⟩

/-- The arrays as the region finds them: x after the host's change of float format, the quantized weights, the scales. -/
abbrev aX (c : Dev nD) : S8192x4096.Idx → EReal := V m c main_v0
abbrev aQ (c : Dev nD) : S4096x4096.Idx → BitVec 32 := V m c main_arg1
abbrev aS (c : Dev nD) : S4096x32.Idx → EReal := V m c main_arg2

/-- The printed index maps, decided over the grid: token-tile t % 16 and out-tile t / 16. -/
theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = t.val / 16 :=
  (by decide +kernel : ∀ t : Fin grid0.N, _)

/-- The token block at point t, at (p, i): x at row 512·(t % 16) + p. -/
theorem iblk0_apply (c : Dev nD) (t : Fin cfg0.N) (p : Fin 512) (i : Fin 4096) :
    (iblk m c 0 t : Vec Ideal S512x4096 .bf16) (ix2 p i) = aX m c (ix2 (xRow (t.val % 16) p) i) := by
  obtain ⟨e0, e1, -⟩ := idx_facts t
  have hN : t.val < 128 := lt_of_lt_of_eq t.isLt N_0
  unfold iblk
  rw [View.read_apply]
  show V m c main_v0 (((cfg0.win 0).blk t).view.emb (ix2 p i)) = V m c main_v0 (ix2 (xRow (t.val % 16) p) i)
  refine congrArg (V m c main_v0) (funext fun a => Fin.ext ?_)
  match a with
  | ⟨0, _⟩ =>
    show win0_0.index t (0 : Fin 2) * 512 + 1 * p.val = (512 * (t.val % 16) + p.val) % 8192
    rw [e0]; have := p.isLt; omega
  | ⟨1, _⟩ =>
    show win0_0.index t (1 : Fin 2) * 4096 + 1 * i.val = i.val
    rw [e1]; omega

/-- The quantized-weight block at point t, at (q, i): row 512·(t / 16) + q. -/
theorem iblk1_apply (c : Dev nD) (t : Fin cfg0.N) (q : Fin 512) (i : Fin 4096) :
    (iblk m c 1 t : Vec Ideal S512x4096 .i32) (ix2 q i) = aQ m c (ix2 (wRow (t.val / 16) q) i) := by
  obtain ⟨-, -, e2, e3, -⟩ := idx_facts t
  have hN : t.val < 128 := lt_of_lt_of_eq t.isLt N_0
  unfold iblk
  rw [View.read_apply]
  show V m c main_arg1 (((cfg0.win 1).blk t).view.emb (ix2 q i)) = V m c main_arg1 (ix2 (wRow (t.val / 16) q) i)
  refine congrArg (V m c main_arg1) (funext fun a => Fin.ext ?_)
  match a with
  | ⟨0, _⟩ =>
    show win0_1.index t (0 : Fin 2) * 512 + 1 * q.val = (512 * (t.val / 16) + q.val) % 4096
    rw [e2]; have := q.isLt; omega
  | ⟨1, _⟩ =>
    show win0_1.index t (1 : Fin 2) * 4096 + 1 * i.val = i.val
    rw [e3]; omega

/-- The scale block at point t, at (q, g): row 512·(t / 16) + q. -/
theorem iblk2_apply (c : Dev nD) (t : Fin cfg0.N) (q : Fin 512) (g : Fin 32) :
    (iblk m c 2 t : Vec Ideal S512x32 .f32) (ix2 q g) = aS m c (ix2 (wRow (t.val / 16) q) g) := by
  obtain ⟨-, -, -, -, e4, e5, -⟩ := idx_facts t
  have hN : t.val < 128 := lt_of_lt_of_eq t.isLt N_0
  unfold iblk
  rw [View.read_apply]
  show V m c main_arg2 (((cfg0.win 2).blk t).view.emb (ix2 q g)) = V m c main_arg2 (ix2 (wRow (t.val / 16) q) g)
  refine congrArg (V m c main_arg2) (funext fun a => Fin.ext ?_)
  match a with
  | ⟨0, _⟩ =>
    show win0_2.index t (0 : Fin 2) * 512 + 1 * q.val = (512 * (t.val / 16) + q.val) % 4096
    rw [e4]; have := q.isLt; omega
  | ⟨1, _⟩ =>
    show win0_2.index t (1 : Fin 2) * 32 + 1 * g.val = g.val
    rw [e5]; omega

/-! ## One point, over blocks that are rows of the arrays

Stated over any three blocks whose rows are rows rt p of x and rows ro q of the quantized weights and the scales. -/

/-- After a first point the scratch's row q is row ro q of the dequantized weight matrix. -/
theorem first_scratch (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec Ideal S512x4096 .bf16) (x1 : Vec Ideal S512x4096 .i32) (x2 : Vec Ideal S512x32 .f32)
    (AQ : S4096x4096.Idx → BitVec 32) (AS : S4096x32.Idx → EReal) (ro : Fin 512 → Fin 4096)
    (h1 : ∀ (q : Fin 512) (j : Fin 4096), x1 (ix2 q j) = AQ (ix2 (ro q) j))
    (h2 : ∀ (q : Fin 512) (g : Fin 32), x2 (ix2 q g) = AS (ix2 (ro q) g)) (q : Fin 512) (n : Fin 4096) :
    wFresh (F := Ideal) c i arg2 harg2 arg3 harg3 arg4 harg4 arg5 harg5 arg6 harg6 hc0 hc1 x0 x1 x2 (ix2 q n) = weightAt AQ AS (ro q) n.val := by
  rw [wFresh_apply]
  unfold weightAt
  rw [rowAt_congr x1 AQ 0#32 q (ro q) (h1 q) n.val, rowAt_congr x2 AS (0 : EReal) q (ro q) (h2 q) (n.val / 128)]

/-- A first point's output block holds the product's entries at rows rt p, columns ro q. -/
theorem first_out (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : isFirst i) (hc1 : ¬isLater i)
    (x0 : Vec Ideal S512x4096 .bf16) (x1 : Vec Ideal S512x4096 .i32) (x2 : Vec Ideal S512x32 .f32)
    (AX : S8192x4096.Idx → EReal) (AQ : S4096x4096.Idx → BitVec 32) (AS : S4096x32.Idx → EReal)
    (rt : Fin 512 → Fin 8192) (ro : Fin 512 → Fin 4096)
    (h0 : ∀ (p : Fin 512) (j : Fin 4096), x0 (ix2 p j) = AX (ix2 (rt p) j))
    (h1 : ∀ (q : Fin 512) (j : Fin 4096), x1 (ix2 q j) = AQ (ix2 (ro q) j))
    (h2 : ∀ (q : Fin 512) (g : Fin 32), x2 (ix2 q g) = AS (ix2 (ro q) g)) (p q : Fin 512) :
    outFresh (F := Ideal) c i arg2 harg2 arg3 harg3 arg4 harg4 arg5 harg5 arg6 harg6 hc0 hc1 x0 x1 x2 (ix2 p q) = entry AX AQ AS (rt p) (ro q) :=
  (outFresh_apply c i arg2 harg2 arg3 harg3 arg4 harg4 arg5 harg5 arg6 harg6 hc0 hc1 x0 x1 x2 p q).trans
    (entry_congr x0 AX x1 AQ x2 AS p (rt p) q (ro q) (h0 p) (h1 q) (h2 q))

/-- A later point's output block holds them too, when the scratch it finds holds the dequantized weights' rows ro q. -/
theorem later_out (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x4096 .bf16) (harg6 : arg6.IsWhole) (hc0 : ¬isFirst i) (hc1 : isLater i)
    (x0 : Vec Ideal S512x4096 .bf16) (xs : Vec Ideal S512x4096 .bf16)
    (AX : S8192x4096.Idx → EReal) (AQ : S4096x4096.Idx → BitVec 32) (AS : S4096x32.Idx → EReal)
    (rt : Fin 512 → Fin 8192) (ro : Fin 512 → Fin 4096)
    (h0 : ∀ (p : Fin 512) (j : Fin 4096), x0 (ix2 p j) = AX (ix2 (rt p) j))
    (hs : ∀ (q : Fin 512) (j : Fin 4096), xs (ix2 q j) = weightAt AQ AS (ro q) j.val) (p q : Fin 512) :
    outCached (F := Ideal) c i arg2 harg2 arg3 harg3 arg4 harg4 arg5 harg5 arg6 harg6 hc0 hc1 x0 xs (ix2 p q) = entry AX AQ AS (rt p) (ro q) := by
  rw [outCached_apply, entry_eq_sum_fin]
  exact Finset.sum_congr rfl fun j _ => by rw [h0 p j, hs q j]

/-! ## All the points -/

/-- What holds after point n: the scratch is out-tile n / 16's dequantized weights, the output block the product's entries. -/
def After (c : Dev nD) (n : ℕ) (h : n < cfg0.N) : Prop :=
  (∀ (q : Fin 512) (i : Fin 4096), (outsAt m c n h).2 (ix2 q i) = weightAt (aQ m c) (aS m c) (wRow (n / 16) q) i.val)
  ∧ (∀ (p q : Fin 512), (outsAt m c n h).1 (ix2 p q) = entry (aX m c) (aQ m c) (aS m c) (xRow (n % 16) p) (wRow (n / 16) q))

set_option maxHeartbeats 2000000 in
/-- At the first point of an out-tile, from the point's own three blocks. -/
theorem after_first (c : Dev nD) (t : Fin cfg0.N) (h0 : t.val % 16 = 0) : After m c t.val t.isLt := by
  have hf := outsAt_fresh m c t h0
  constructor
  · intro q i
    rw [hf]
    exact first_scratch c (grid0.coords t) (ms0 t) (hs0 t) (ms1 t) (hs1 t) (ms2 t) (hs2 t) (ms3 t) (hs3 t) wM (Memref.isWhole_whole _) ((isFirst_iff t).mpr h0) (fun h => (isLater_iff t).mp h h0)
      (iblk m c 0 t) (iblk m c 1 t) (iblk m c 2 t) (aQ m c) (aS m c) (wRow (t.val / 16))
      (iblk1_apply m c t) (iblk2_apply m c t) q i
  · intro p q
    rw [hf]
    exact first_out c (grid0.coords t) (ms0 t) (hs0 t) (ms1 t) (hs1 t) (ms2 t) (hs2 t) (ms3 t) (hs3 t) wM (Memref.isWhole_whole _) ((isFirst_iff t).mpr h0) (fun h => (isLater_iff t).mp h h0)
      (iblk m c 0 t) (iblk m c 1 t) (iblk m c 2 t) (aX m c) (aQ m c) (aS m c) (xRow (t.val % 16)) (wRow (t.val / 16))
      (iblk0_apply m c t) (iblk1_apply m c t) (iblk2_apply m c t) p q

set_option maxHeartbeats 2000000 in
/-- At a later point, from what the point before left in the scratch: the same out-tile's weights. -/
theorem after_later (c : Dev nD) (t : Fin cfg0.N) (h0 : ¬t.val % 16 = 0)
    (ih : ∀ (q : Fin 512) (i : Fin 4096), (outsAt m c (t.val - 1) (Nat.lt_of_le_of_lt (Nat.sub_le _ _) t.isLt)).2 (ix2 q i)
      = weightAt (aQ m c) (aS m c) (wRow ((t.val - 1) / 16) q) i.val) : After m c t.val t.isLt := by
  have hc := outsAt_cached m c t h0
  have hdiv : (t.val - 1) / 16 = t.val / 16 := by omega
  have ih' : ∀ (q : Fin 512) (j : Fin 4096), (outsAt m c (t.val - 1) (Nat.lt_of_le_of_lt (Nat.sub_le _ _) t.isLt)).2 (ix2 q j)
      = weightAt (aQ m c) (aS m c) (wRow (t.val / 16) q) j.val := fun q j => (ih q j).trans (by rw [hdiv])
  constructor
  · intro q i
    rw [hc]
    exact ih' q i
  · intro p q
    rw [hc]
    exact later_out c (grid0.coords t) (ms0 t) (hs0 t) (ms1 t) (hs1 t) (ms2 t) (hs2 t) (ms3 t) (hs3 t) wM (Memref.isWhole_whole _) (fun h => h0 ((isFirst_iff t).mp h)) ((isLater_iff t).mpr h0)
      (iblk m c 0 t) (outsAt m c (t.val - 1) (Nat.lt_of_le_of_lt (Nat.sub_le _ _) t.isLt)).2
      (aX m c) (aQ m c) (aS m c) (xRow (t.val % 16)) (wRow (t.val / 16)) (iblk0_apply m c t) ih' p q

/-- By induction on the point. -/
theorem after_all (c : Dev nD) : ∀ (n : ℕ) (h : n < cfg0.N), After m c n h
  | 0, h => after_first m c ⟨0, h⟩ rfl
  | n + 1, h => by
    by_cases h0 : (n + 1) % 16 = 0
    · exact after_first m c ⟨n + 1, h⟩ h0
    · exact after_later m c ⟨n + 1, h⟩ h0 (after_all c n (Nat.lt_of_succ_lt h)).1

/-! ## From the blocks to the array -/

/-- The grouped-quantization product of the arrays as the region finds them. -/
def resultV (c : Dev nD) : Buf (Elt Ideal) ((c : Thread nD τ).loc main_v1) :=
  fun y => entry (aX m c) (aQ m c) (aS m c) (⟨(y 0).val, (y 0).isLt⟩ : Fin 8192) (⟨(y 1).val, (y 1).isLt⟩ : Fin 4096)

/-- What point t writes back is block t of it. -/
theorem flushed_eq (c : Dev nD) (t : Fin cfg0.N) :
    (dats m 0 c).flushed 3 t = ((cfg0.win 3).blk t).view.read (Elt Ideal) (resultV m c) := by
  obtain ⟨-, -, -, -, -, -, e6, e7⟩ := idx_facts t
  have hN : t.val < 128 := lt_of_lt_of_eq t.isLt N_0
  show (cfg0.win 3).cut (grid0.coords t) ((dats m 0 c).after 3 t) = _
  rw [after3]
  funext j
  obtain ⟨p, q, rfl⟩ : ∃ (p q : Fin 512), j = ix2 p q := ⟨j 0, j 1, eq_ix2 j⟩
  show (outsAt m c t.val t.isLt).1 (ix2 p q) = resultV m c (((cfg0.win 3).blk t).view.emb (ix2 p q))
  rw [(after_all m c t.val t.isLt).2 p q]
  unfold resultV
  have r0 : xRow (t.val % 16) p = (⟨((((cfg0.win 3).blk t).view.emb (ix2 p q)) 0).val, ((((cfg0.win 3).blk t).view.emb (ix2 p q)) 0).isLt⟩ : Fin 8192) :=
    Fin.ext (by
      show (512 * (t.val % 16) + p.val) % 8192 = win0_3.index t (0 : Fin 2) * 512 + 1 * p.val
      rw [e6]; have := p.isLt; omega)
  have r1 : wRow (t.val / 16) q = (⟨((((cfg0.win 3).blk t).view.emb (ix2 p q)) 1).val, ((((cfg0.win 3).blk t).view.emb (ix2 p q)) 1).isLt⟩ : Fin 4096) :=
    Fin.ext (by
      show (512 * (t.val / 16) + q.val) % 4096 = win0_3.index t (1 : Fin 2) * 512 + 1 * q.val
      rw [e7]; have := q.isLt; omega)
  rw [r0, r1]

/-- An index of the result is in point t's block iff each coordinate is in the block's range. -/
theorem mem_blk (t : Fin cfg0.N) (i : S8192x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v1).slice (win0_3.rect t)).set ↔ _
  rw [View.set_slice_whole, Rect.mem_set_unit]
  exact Iff.rfl

/-- The result array after the run is the product: entry (r, o) lies in the block of point 16·(o / 512) + r / 512. -/
theorem final (c : Dev nD) : (dats m 0 c).arrAt 3 cfg0.N = resultV m c :=
  (dats m 0 c).arrAt_eq_of_cover 3 (resultV m c) (fun t _ => flushed_eq m c t) fun i => by
    have hi0 : (i 0).val < 8192 := (i 0).isLt
    have hi1 : (i 1).val < 4096 := (i 1).isLt
    have hN : cfg0.N = 128 := N_0
    let t : Fin cfg0.N := ⟨16 * ((i 1).val / 512) + (i 0).val / 512, by rw [hN]; omega⟩
    obtain ⟨-, -, -, -, -, -, e6, e7⟩ := idx_facts t
    have ht : t.val = 16 * ((i 1).val / 512) + (i 0).val / 512 := rfl
    refine ⟨t, flush0_3 t, ?_⟩
    rw [mem_blk]
    intro a
    match a with
    | ⟨0, _⟩ =>
      show win0_3.index t (0 : Fin 2) * 512 ≤ (i 0).val ∧ (i 0).val < win0_3.index t (0 : Fin 2) * 512 + 512
      rw [e6, ht]; omega
    | ⟨1, _⟩ =>
      show win0_3.index t (1 : Fin 2) * 512 ≤ (i 1).val ∧ (i 1).val < win0_3.index t (1 : Fin 2) * 512 + 512
      rw [e7, ht]; omega

/-! ## In terms of the argument arrays -/

/-- The host's change of x's float format is the identity on extended reals. -/
theorem aX_eq (c : Dev nD) : aX m c = m ((c : Thread nD τ).loc main_arg0) := by
  show (V m c main_v0 : S8192x4096.Idx → EReal) = _
  dsimp only [V, hostOps0]
  after_results
  rfl

/-- The grouped-quantization product of the argument arrays. -/
def result (c : Dev nD) : Buf (Elt Ideal) ((c : Thread nD τ).loc main_v1) :=
  fun y => entry (m ((c : Thread nD τ).loc main_arg0)) (m ((c : Thread nD τ).loc main_arg1)) (m ((c : Thread nD τ).loc main_arg2))
    (⟨(y 0).val, (y 0).isLt⟩ : Fin 8192) (⟨(y 1).val, (y 1).isLt⟩ : Fin 4096)

theorem resultV_eq (c : Dev nD) : resultV m c = result m c := by
  unfold resultV result
  rw [aX_eq]
  show (fun y => entry _ (V m c main_arg1) (V m c main_arg2) _ _) = _
  rw [V_main_arg1, V_main_arg2]

/-- The run, read: the result array at the product of the argument arrays, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans ((final m c).trans (resultV_eq m c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Val

end
-- ==== Proof.RefValue.lean ====
/-
  The reference's result, entry by entry: its host program dequantizes the whole weight matrix (convert, subtract the
  zero point, view the 4096 columns as 32 groups of 128, multiply by the group scales, view as 4096 columns again) and
  takes one contraction with x over the 4096 input features.

  Viewing row o's column k as (group k / 128, position k % 128) and back changes no entry, and the scale broadcast along
  a group reads the scale of group k / 128: so the weight the contraction meets at (o, k) is (q[o, k] - 8) · s[o, k / 128],
  and entry (t, o) of the result is the grouped-quantization product's entry.
-/
import proofs.«151252_j90718299226265_2_alg».proof.Proof.Gen.ReferenceIdeal.Read
import proofs.«151252_j90718299226265_2_alg».proof.Proof.Spec
import Idealize.ShloMosaic.Lib.Pipeline.Value

noncomputable section

namespace Cert.ReferenceIdeal.RefValue

open Idealize.ShloMosaic Idealize.ShloMosaic.ValueIdx Cert.ReferenceIdeal Cert.ReferenceIdeal.Read Cert.GroupedProduct

/-- The weight the reference's contraction meets at row o, column k. -/
theorem weight_apply (x1 : Vec Ideal S4096x4096 .i32) (x2 : FVec Ideal S4096x32 .f32) (o k : Fin 4096) :
    val_main_v7 (F := Ideal) x1 x2 (ix2 o k) = weightAt x1 x2 o k.val := by
  have ho : o.val < 4096 := o.isLt
  have hk : k.val < 4096 := k.isLt
  have hg : k.val / 128 < 32 := by omega
  rw [val_main_v7_apply, val_main_v6_apply, val_main_v3_apply, val_main_v2_apply, val_main_v0_apply, val_main_v1_apply,
    val_main_cst_apply, val_main_v5_apply, val_main_v4_apply]
  have e3 : idx_main_v3 (idx_main_v7 (ix2 o k)) = ix2 o k := funext fun a => Fin.ext (by
    match a with
    | ⟨0, _⟩ =>
      show (((o.val * 4096 + k.val) / 4096 * 32 + (o.val * 4096 + k.val) / 128 % 32) * 128 + (o.val * 4096 + k.val) % 128) / 4096 = o.val
      omega
    | ⟨1, _⟩ =>
      show (((o.val * 4096 + k.val) / 4096 * 32 + (o.val * 4096 + k.val) / 128 % 32) * 128 + (o.val * 4096 + k.val) % 128) % 4096 = k.val
      omega)
  have e4 : idx_main_v4 (idx_main_v5 (idx_main_v7 (ix2 o k))) = ix2 o (⟨k.val / 128, hg⟩ : Fin 32) := funext fun a => Fin.ext (by
    match a with
    | ⟨0, _⟩ => show (o.val * 4096 + k.val) / 4096 = o.val; omega
    | ⟨1, _⟩ => show (o.val * 4096 + k.val) / 128 % 32 = k.val / 128; omega)
  rw [e3, e4]
  unfold weightAt dequant zeroPoint
  rw [rowAt_fin, rowAt_of_lt x2 0 o _ hg]
  rfl

/-- Entry (t, o) of the reference's result is the grouped-quantization product's entry. -/
theorem result_apply (x0 : FVec Ideal S8192x4096 .f32) (x1 : Vec Ideal S4096x4096 .i32) (x2 : FVec Ideal S4096x32 .f32)
    (t : Fin 8192) (o : Fin 4096) :
    val_main_v8 (F := Ideal) x0 x1 x2 (ix2 t o) = entry x0 x1 x2 t o := by
  rw [entry_eq_sum_fin, val_main_v8_apply]
  refine Finset.sum_congr rfl fun k _ => ?_
  have el : lidx_main_v8 (ix2 t o) k = ix2 t k := funext fun a => Fin.ext (by
    match a with
    | ⟨0, _⟩ => rfl
    | ⟨1, _⟩ => rfl)
  have er : ridx_main_v8 (ix2 t o) k = ix2 o k := funext fun a => Fin.ext (by
    match a with
    | ⟨0, _⟩ => rfl
    | ⟨1, _⟩ => rfl)
  rw [el, er, weight_apply]

end Cert.ReferenceIdeal.RefValue

end
-- ==== Proof.lean ====
/-
  The grouped-quantization matmul kernel against its jnp reference.

  Both programs compute out[t, o] = sum over the 4096 input features i of x[t, i] · (q[o, i] - 8) · s[o, i / 128]: the weights
  are 4-bit quantized integers with zero point 8 and one scale per output row and group of 128 features. The reference
  dequantizes the whole weight matrix on the host and takes one contraction. The kernel tiles the result into 512 x 512
  blocks; at the first token tile of an out-tile it dequantizes the tile's weights group by group into a scratch buffer,
  adding each group's partial product to an accumulator, and at the other token tiles it contracts the token block with
  the weights the scratch still holds. Read at the extended reals (a change of float format is the identity), the two
  differ only in how the sum over i is grouped, and addition there is commutative and associative: so the results are
  equal entry by entry, with no use of the inputs' finiteness.

  The three frames: each kernel program runs to the end without a fault and leaves its arguments unchanged (the body run
  once per branch, the scratch's contents carried in the invariant from point to point); the reference is a straight line
  of host operations. The idealization rewrote nothing.
-/
import proofs.«151252_j90718299226265_2_alg».proof.Defs
import proofs.«151252_j90718299226265_2_alg».proof.Proof.KB.Frame
import proofs.«151252_j90718299226265_2_alg».proof.Proof.KI.Value
import proofs.«151252_j90718299226265_2_alg».proof.Proof.RefValue
import proofs.«151252_j90718299226265_2_alg».proof.Proof.Gen.Kernel
import proofs.«151252_j90718299226265_2_alg».proof.Proof.Gen.KernelIdeal
import proofs.«151252_j90718299226265_2_alg».proof.Proof.Gen.ReferenceIdeal
import proofs.«151252_j90718299226265_2_alg».proof.Proof.Gen.Pre_finite_inputs
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the product of its argument arrays, the reference's at its host term of arguments
    that agree: one function, entry by entry. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2]
  funext y
  obtain ⟨t, o, rfl⟩ : ∃ (t : Fin 8192) (o : Fin 4096), y = ix2 t o := ⟨y 0, y 1, eq_ix2 y⟩
  exact Cert.ReferenceIdeal.RefValue.result_apply _ _ _ t o

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
